-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x128 : Shape := ⟨3, ![8192, 1, 128]⟩
abbrev S8192x81x128 : Shape := ⟨3, ![8192, 81, 128]⟩
abbrev S_ : Shape := ⟨0, ![]⟩

class Facts : Prop where
  bcast_S_S8192x1x128 : S_.BroadcastsInDim S8192x1x128 (![] : Fin 0 → Fin S8192x1x128.rank)
  reducesTo_S8192x1x128_S_d0_1_2 : S8192x1x128.ReducesTo [0, 1, 2] S_
  h_S_ : 0 < S_.numel
  bcast_S_S8192x81x128 : S_.BroadcastsInDim S8192x81x128 (![] : Fin 0 → Fin S8192x81x128.rank)
  reducesTo_S8192x81x128_S_d0_1_2 : S8192x81x128.ReducesTo [0, 1, 2] S_

variable [Facts]

def fn_part1 {F : FTy → Type} [FloatOps F] (main_arg4 : FVec F S8192x81x128 .f32) (main_v13 : IVec S_ 1) (main_v16 : IVec S8192x81x128 1) : IVec S_ 1 :=
  let main_c_5 : IVec S_ 1 := constantI S_ 1 1#1
  let main_v17 : IVec S_ 1 := (fun x v => Host.reduce IntOp.andi x v reducesTo_S8192x81x128_S_d0_1_2 h_S_) main_v16 main_c_5
  let main_v18 : IVec S_ 1 := andi main_v13 main_v17
  let main_v19 : FVec F S8192x81x128 .f32 := Host.absf main_arg4
  let main_cst_6 : FVec F S_ .f32 := constant S_ .f32 0x7F800000#32
  let main_v20 : FVec F S8192x81x128 .f32 := broadcastInDim S8192x81x128 ![] bcast_S_S8192x81x128 main_cst_6
  let main_v21 : IVec S8192x81x128 1 := cmpf .olt main_v19 main_v20
  let main_c_7 : IVec S_ 1 := constantI S_ 1 1#1
  let main_v22 : IVec S_ 1 := (fun x v => Host.reduce IntOp.andi x v reducesTo_S8192x81x128_S_d0_1_2 h_S_) main_v21 main_c_7
  let main_v23 : IVec S_ 1 := andi main_v18 main_v22
  main_v23

def fn {F : FTy → Type} [FloatOps F] (main_arg0 : FVec F S8192x1x128 .f32) (main_arg1 : FVec F S8192x81x128 .f32) (main_arg2 : FVec F S8192x81x128 .f32) (main_arg3 : FVec F S8192x81x128 .f32) (main_arg4 : FVec F S8192x81x128 .f32) : IVec S_ 1 :=
  let main_v0 : FVec F S8192x1x128 .f32 := Host.absf main_arg0
  let main_cst : FVec F S_ .f32 := constant S_ .f32 0x7F800000#32
  let main_v1 : FVec F S8192x1x128 .f32 := broadcastInDim S8192x1x128 ![] bcast_S_S8192x1x128 main_cst
  let main_v2 : IVec S8192x1x128 1 := cmpf .olt main_v0 main_v1
  let main_c : IVec S_ 1 := constantI S_ 1 1#1
  let main_v3 : IVec S_ 1 := (fun x v => Host.reduce IntOp.andi x v reducesTo_S8192x1x128_S_d0_1_2 h_S_) main_v2 main_c
  let main_v4 : FVec F S8192x81x128 .f32 := Host.absf main_arg1
  let main_cst_0 : FVec F S_ .f32 := constant S_ .f32 0x7F800000#32
  let main_v5 : FVec F S8192x81x128 .f32 := broadcastInDim S8192x81x128 ![] bcast_S_S8192x81x128 main_cst_0
  let main_v6 : IVec S8192x81x128 1 := cmpf .olt main_v4 main_v5
  let main_c_1 : IVec S_ 1 := constantI S_ 1 1#1
  let main_v7 : IVec S_ 1 := (fun x v => Host.reduce IntOp.andi x v reducesTo_S8192x81x128_S_d0_1_2 h_S_) main_v6 main_c_1
  let main_v8 : IVec S_ 1 := andi main_v3 main_v7
  let main_v9 : FVec F S8192x81x128 .f32 := Host.absf main_arg2
  let main_cst_2 : FVec F S_ .f32 := constant S_ .f32 0x7F800000#32
  let main_v10 : FVec F S8192x81x128 .f32 := broadcastInDim S8192x81x128 ![] bcast_S_S8192x81x128 main_cst_2
  let main_v11 : IVec S8192x81x128 1 := cmpf .olt main_v9 main_v10
  let main_c_3 : IVec S_ 1 := constantI S_ 1 1#1
  let main_v12 : IVec S_ 1 := (fun x v => Host.reduce IntOp.andi x v reducesTo_S8192x81x128_S_d0_1_2 h_S_) main_v11 main_c_3
  let main_v13 : IVec S_ 1 := andi main_v8 main_v12
  let main_v14 : FVec F S8192x81x128 .f32 := Host.absf main_arg3
  let main_cst_4 : FVec F S_ .f32 := constant S_ .f32 0x7F800000#32
  let main_v15 : FVec F S8192x81x128 .f32 := broadcastInDim S8192x81x128 ![] bcast_S_S8192x81x128 main_cst_4
  let main_v16 : IVec S8192x81x128 1 := cmpf .olt main_v14 main_v15
  fn_part1 (F := F) main_arg4 main_v13 main_v16
-- ==== Kernel.lean ====
abbrev S8192x1x128 : Shape := ⟨3, ![8192, 1, 128]⟩
abbrev S8192x81x128 : Shape := ⟨3, ![8192, 81, 128]⟩
abbrev S8192x128 : Shape := ⟨2, ![8192, 128]⟩
abbrev S64x128 : Shape := ⟨2, ![64, 128]⟩
abbrev S64x81x128 : Shape := ⟨3, ![64, 81, 128]⟩
abbrev S64x1x128 : Shape := ⟨3, ![64, 1, 128]⟩
abbrev S64x81x32 : Shape := ⟨3, ![64, 81, 32]⟩
abbrev S64x81 : Shape := ⟨2, ![64, 81]⟩
abbrev S64 : Shape := ⟨1, ![64]⟩
abbrev S64x1 : Shape := ⟨2, ![64, 1]⟩
abbrev S64x81x1 : Shape := ⟨3, ![64, 81, 1]⟩
abbrev S64x32 : Shape := ⟨2, ![64, 32]⟩

abbrev nBuf : Space → Nat
  | .hbm => 8
  | .vmem => 12
  | .smem => 0
  | _ => 0

abbrev bufTy : (tb : Table) → Fin (tcTables nBuf tb) → BufTy
  | .hbm, ⟨0, _⟩ => ⟨S8192x1x128, .f32⟩
  | .hbm, ⟨1, _⟩ => ⟨S8192x81x128, .f32⟩
  | .hbm, ⟨2, _⟩ => ⟨S8192x81x128, .f32⟩
  | .hbm, ⟨3, _⟩ => ⟨S8192x81x128, .f32⟩
  | .hbm, ⟨4, _⟩ => ⟨S8192x81x128, .f32⟩
  | .hbm, ⟨5, _⟩ => ⟨S8192x128, .f32⟩
  | .hbm, ⟨6, _⟩ => ⟨S8192x128, .f32⟩
  | .hbm, ⟨7, _⟩ => ⟨S8192x1x128, .f32⟩
  | .local _ .vmem, ⟨0, _⟩ => ⟨S64x128, .f32⟩
  | .local _ .vmem, ⟨1, _⟩ => ⟨S64x128, .f32⟩
  | .local _ .vmem, ⟨2, _⟩ => ⟨S64x81x128, .f32⟩
  | .local _ .vmem, ⟨3, _⟩ => ⟨S64x81x128, .f32⟩
  | .local _ .vmem, ⟨4, _⟩ => ⟨S64x81x128, .f32⟩
  | .local _ .vmem, ⟨5, _⟩ => ⟨S64x81x128, .f32⟩
  | .local _ .vmem, ⟨6, _⟩ => ⟨S64x81x128, .f32⟩
  | .local _ .vmem, ⟨7, _⟩ => ⟨S64x81x128, .f32⟩
  | .local _ .vmem, ⟨8, _⟩ => ⟨S64x81x128, .f32⟩
  | .local _ .vmem, ⟨9, _⟩ => ⟨S64x81x128, .f32⟩
  | .local _ .vmem, ⟨10, _⟩ => ⟨S64x128, .f32⟩
  | .local _ .vmem, ⟨11, _⟩ => ⟨S64x128, .f32⟩
  | _, _ => ⟨S8192x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x81x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x81x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x81x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x81x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x1x128_S8192x128 : S8192x1x128.ShapeCasts S8192x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x81x128_S64x81x128_0_0_0 : ∀ a, (![0, 0, 0] : Fin 3 → Nat) a + S64x81x128.size a ≤ S64x81x128.size a
  h_S64x81x128 : 0 < S64x81x128.numel
  shapeCasts_S64x128_S64x1x128 : S64x128.ShapeCasts S64x1x128
  broadcasts_S64x1x128_S64x81x128 : S64x1x128.Broadcasts S64x81x128
  slices_S64x81x128_o0_0_0_S64x81x32 : S64x81x128.Slices ![0, 0, 0] S64x81x32
  reduces_S64x81x32_S64x81 : S64x81x32.Reduces [2] S64x81
  reduces_S64x81_S64 : S64x81.Reduces [1] S64
  shapeCasts_S64_S64x1 : S64.ShapeCasts S64x1
  broadcasts_S64x1_S64x81 : S64x1.Broadcasts S64x81
  slices_S64x81x128_o0_0_32_S64x81x32 : S64x81x128.Slices ![0, 0, 32] S64x81x32
  slices_S64x81x128_o0_0_64_S64x81x32 : S64x81x128.Slices ![0, 0, 64] S64x81x32
  slices_S64x81x128_o0_0_96_S64x81x32 : S64x81x128.Slices ![0, 0, 96] S64x81x32
  shapeCasts_S64x81_S64x81x1 : S64x81.ShapeCasts S64x81x1
  broadcasts_S64x81x1_S64x81x32 : S64x81x1.Broadcasts S64x81x32
  reduces_S64x81x32_S64x32 : S64x81x32.Reduces [1] S64x32
  concatenates_S64x32_S64x32_S64x32_S64x32_S64x128_d1 : Shape.Concatenates [S64x32, S64x32, S64x32, S64x32] S64x128 1
  shapeCasts_S8192x128_S8192x1x128 : S8192x128.ShapeCasts S8192x1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S8192x128.size a
  hwx0_0 : ∀ i : grid0.Coords, EltTy.bits .f32 = 32 ∨ (Rect.block (s := S8192x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x81x128.size a ≤ S8192x81x128.size a
  hwx0_1 : ∀ i : grid0.Coords, EltTy.bits .f32 = 32 ∨ (Rect.block (s := S8192x81x128) S64x81x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x81x128.size a ≤ S8192x81x128.size a
  hwx0_2 : ∀ i : grid0.Coords, EltTy.bits .f32 = 32 ∨ (Rect.block (s := S8192x81x128) S64x81x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x81x128.size a ≤ S8192x81x128.size a
  hwx0_3 : ∀ i : grid0.Coords, EltTy.bits .f32 = 32 ∨ (Rect.block (s := S8192x81x128) S64x81x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x81x128.size a ≤ S8192x81x128.size a
  hwx0_4 : ∀ i : grid0.Coords, EltTy.bits .f32 = 32 ∨ (Rect.block (s := S8192x81x128) S64x81x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S8192x128.size a
  hwx0_5 : ∀ i : grid0.Coords, EltTy.bits .f32 = 32 ∨ (Rect.block (s := S8192x128) S64x128.size (cc0_transform_5 i) (hinb0_5 i)).WholeWords (EltTy.packing .f32)

variable [Facts₀]

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x81x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x81x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x81x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x81x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1x128 : Shape := ⟨3, ![8192, 1, 128]⟩
abbrev S8192x81x128 : Shape := ⟨3, ![8192, 81, 128]⟩
abbrev S8192x1x4x32 : Shape := ⟨4, ![8192, 1, 4, 32]⟩
abbrev S8192x4x1x32 : Shape := ⟨4, ![8192, 4, 1, 32]⟩
abbrev S8192x81x4x32 : Shape := ⟨4, ![8192, 81, 4, 32]⟩
abbrev S8192x4x81x32 : Shape := ⟨4, ![8192, 4, 81, 32]⟩
abbrev S8192x4x1x81 : Shape := ⟨4, ![8192, 4, 1, 81]⟩
abbrev S_ : Shape := ⟨0, ![]⟩
abbrev S8192x4x81 : Shape := ⟨3, ![8192, 4, 81]⟩
abbrev S8192x4x1 : Shape := ⟨3, ![8192, 4, 1]⟩
abbrev S8192x4x1x1 : Shape := ⟨4, ![8192, 4, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1x128, .f32⟩
  | .hbm, ⟨1, _⟩ => ⟨S8192x81x128, .f32⟩
  | .hbm, ⟨2, _⟩ => ⟨S8192x81x128, .f32⟩
  | .hbm, ⟨3, _⟩ => ⟨S8192x81x128, .f32⟩
  | .hbm, ⟨4, _⟩ => ⟨S8192x81x128, .f32⟩
  | .hbm, ⟨5, _⟩ => ⟨S8192x1x4x32, .f32⟩
  | .hbm, ⟨6, _⟩ => ⟨S8192x4x1x32, .f32⟩
  | .hbm, ⟨7, _⟩ => ⟨S8192x81x4x32, .f32⟩
  | .hbm, ⟨8, _⟩ => ⟨S8192x4x81x32, .f32⟩
  | .hbm, ⟨9, _⟩ => ⟨S8192x81x4x32, .f32⟩
  | .hbm, ⟨10, _⟩ => ⟨S8192x4x81x32, .f32⟩
  | .hbm, ⟨11, _⟩ => ⟨S8192x81x4x32, .f32⟩
  | .hbm, ⟨12, _⟩ => ⟨S8192x4x81x32, .f32⟩
  | .hbm, ⟨13, _⟩ => ⟨S8192x81x4x32, .f32⟩
  | .hbm, ⟨14, _⟩ => ⟨S8192x4x81x32, .f32⟩
  | .hbm, ⟨15, _⟩ => ⟨S8192x4x1x81, .f32⟩
  | .hbm, ⟨16, _⟩ => ⟨S_, .f32⟩
  | .hbm, ⟨17, _⟩ => ⟨S8192x4x1x81, .f32⟩
  | .hbm, ⟨18, _⟩ => ⟨S8192x4x1x81, .f32⟩
  | .hbm, ⟨19, _⟩ => ⟨S8192x4x1x81, .f32⟩
  | .hbm, ⟨20, _⟩ => ⟨S_, .f32⟩
  | .hbm, ⟨21, _⟩ => ⟨S8192x4x1x81, .f32⟩
  | .hbm, ⟨22, _⟩ => ⟨S8192x4x1x81, .f32⟩
  | .hbm, ⟨23, _⟩ => ⟨S8192x4x81x32, .f32⟩
  | .hbm, ⟨24, _⟩ => ⟨S_, .f32⟩
  | .hbm, ⟨25, _⟩ => ⟨S8192x4x81, .f32⟩
  | .hbm, ⟨26, _⟩ => ⟨S_, .f32⟩
  | .hbm, ⟨27, _⟩ => ⟨S8192x4x81, .f32⟩
  | .hbm, ⟨28, _⟩ => ⟨S8192x4x81, .f32⟩
  | .hbm, ⟨29, _⟩ => ⟨S8192x4x1x81, .f32⟩
  | .hbm, ⟨30, _⟩ => ⟨S8192x4x1x81, .f32⟩
  | .hbm, ⟨31, _⟩ => ⟨S8192x4x1x81, .f32⟩
  | .hbm, ⟨32, _⟩ => ⟨S_, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1x1, .f32⟩
  | .hbm, ⟨38, _⟩ => ⟨S8192x4x1x81, .f32⟩
  | .hbm, ⟨39, _⟩ => ⟨S8192x4x1x81, .f32⟩
  | .hbm, ⟨40, _⟩ => ⟨S8192x4x1x81, .f32⟩
  | .hbm, ⟨41, _⟩ => ⟨S_, .f32⟩
  | .hbm, ⟨42, _⟩ => ⟨S8192x4x1, .f32⟩
  | .hbm, ⟨43, _⟩ => ⟨S8192x4x1x1, .f32⟩
  | .hbm, ⟨44, _⟩ => ⟨S8192x4x1x81, .f32⟩
  | .hbm, ⟨45, _⟩ => ⟨S8192x4x1x81, .f32⟩
  | .hbm, ⟨46, _⟩ => ⟨S8192x4x1x32, .f32⟩
  | .hbm, ⟨47, _⟩ => ⟨S8192x1x4x32, .f32⟩
  | .hbm, ⟨48, _⟩ => ⟨S8192x1x128, .f32⟩
  | _, _ => ⟨S8192x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  shapeCasts_S8192x1x128_S8192x1x4x32 : S8192x1x128.ShapeCasts S8192x1x4x32
  transposes_S8192x1x4x32_S8192x4x1x32_0_2_1_3 : S8192x1x4x32.Transposes [0, 2, 1, 3] S8192x4x1x32
  shapeCasts_S8192x81x128_S8192x81x4x32 : S8192x81x128.ShapeCasts S8192x81x4x32
  transposes_S8192x81x4x32_S8192x4x81x32_0_2_1_3 : S8192x81x4x32.Transposes [0, 2, 1, 3] S8192x4x81x32
  bcast_S_S8192x4x1x81 : S_.BroadcastsInDim S8192x4x1x81 (![] : Fin 0 → Fin S8192x4x1x81.rank)
  reducesTo_S8192x4x81x32_S8192x4x81_d3 : S8192x4x81x32.ReducesTo [3] S8192x4x81
  h_S_ : 0 < S_.numel
  bcast_S_S8192x4x81 : S_.BroadcastsInDim S8192x4x81 (![] : Fin 0 → Fin S8192x4x81.rank)
  bcast_S8192x4x81_S8192x4x1x81_0_1_3 : S8192x4x81.BroadcastsInDim S8192x4x1x81 (![0, 1, 3] : Fin 3 → Fin S8192x4x1x81.rank)
  reducesTo_S8192x4x1x81_S8192x4x1_d3 : S8192x4x1x81.ReducesTo [3] S8192x4x1
  bcast_S_S8192x4x1 : S_.BroadcastsInDim S8192x4x1 (![] : Fin 0 → Fin S8192x4x1.rank)
  bcast_S8192x4x1_S8192x4x1x1_0_1_2 : S8192x4x1.BroadcastsInDim S8192x4x1x1 (![0, 1, 2] : Fin 3 → Fin S8192x4x1x1.rank)
  bcast_S8192x4x1x1_S8192x4x1x81_0_1_2_3 : S8192x4x1x1.BroadcastsInDim S8192x4x1x81 (![0, 1, 2, 3] : Fin 4 → Fin S8192x4x1x81.rank)
  transposes_S8192x4x1x32_S8192x1x4x32_0_2_1_3 : S8192x4x1x32.Transposes [0, 2, 1, 3] S8192x1x4x32
  shapeCasts_S8192x1x4x32_S8192x1x128 : S8192x1x4x32.ShapeCasts S8192x1x128
  dot_S8192x4x1x32_S8192x4x81x32_S8192x4x1x81_3_3_2_2_01_01_wf : DotDims.WF S8192x4x1x32 S8192x4x81x32 S8192x4x1x81 [3] [3] [2] [2] [0, 1] [0, 1]
  dot_S8192x4x1x81_S8192x4x81x32_S8192x4x1x32_3_2_2_3_01_01_wf : DotDims.WF S8192x4x1x81 S8192x4x81x32 S8192x4x1x32 [3] [2] [2] [3] [0, 1] [0, 1]

variable [Facts₀]

def dot_S8192x4x1x32_S8192x4x81x32_S8192x4x1x81_3_3_2_2_01_01 : DotDims S8192x4x1x32 S8192x4x81x32 S8192x4x1x81 where
  lhsContracting := [3]
  rhsContracting := [3]
  lhsNonContracting := [2]
  rhsNonContracting := [2]
  lhsBatch := [0, 1]
  rhsBatch := [0, 1]
  wf := dot_S8192x4x1x32_S8192x4x81x32_S8192x4x1x81_3_3_2_2_01_01_wf
def dot_S8192x4x1x81_S8192x4x81x32_S8192x4x1x32_3_2_2_3_01_01 : DotDims S8192x4x1x81 S8192x4x81x32 S8192x4x1x32 where
  lhsContracting := [3]
  rhsContracting := [2]
  lhsNonContracting := [2]
  rhsNonContracting := [3]
  lhsBatch := [0, 1]
  rhsBatch := [0, 1]
  wf := dot_S8192x4x1x81_S8192x4x81x32_S8192x4x1x32_3_2_2_3_01_01_wf

class Facts : Prop extends Facts₀ where

variable [Facts]
-- ==== Proof.Spec.lean ====
/-
  The result of single-query relative-position attention as ONE function of the argument arrays, on the extended reals.

  For a batch row `b` and an output lane `c` (head `c / 32`), every key position `j` gets a logit — the head's 32 lanes of
  `q·(k + kr) + qr·k`, scaled — , the 81 logits go through a softmax (subtract the row maximum, exponentiate, divide by the
  sum), and the output is the softmax-weighted sum over `j` of `V[b, j, c]`.

  Two arrangements of the logit are named: the FUSED one (one product per lane, scaled lane by lane, then summed) and the
  SPLIT one (three dot products over the head's lanes, each scaled, then added). On finite entries they agree (distributivity
  over the reals); everything after the logit is one and the same function of it.
-/
import Idealize.ShloMosaic.PureOps.Ideal
import Idealize.ShloMosaic.Lib.ValueIdx

noncomputable section

open scoped BigOperators

namespace Cert.Attn

open Idealize.ShloMosaic Idealize.ShloMosaic.ValueIdx

/-- The scale `1/sqrt 32` as the f32 word both programs multiply by (never evaluated: the same word on both sides). -/
def sc : EReal := Ideal.ofBits .f32 0x3E3504F3#32
/-- The word of `-inf`, the value a row maximum starts from. -/
def ninf : EReal := Ideal.ofBits .f32 0xFF800000#32

/-- The maximum of a row of 81 logits, folded from `-inf`. -/
def rowMax (L : Fin 81 → EReal) : EReal := (Finset.univ : Finset (Fin 81)).fold max ninf L
/-- The shifted exponential of one logit of the row. -/
def expRow (L : Fin 81 → EReal) (j : Fin 81) : EReal := Ideal.exp (L j - rowMax L)
/-- The softmax weight of position `j`: its shifted exponential over the row's sum of them. -/
def weight (L : Fin 81 → EReal) (j : Fin 81) : EReal := Ideal.div (expRow L j) (∑ k : Fin 81, expRow L k)
/-- The softmax-weighted sum of a row of values. -/
def mix (L v : Fin 81 → EReal) : EReal := ∑ j : Fin 81, weight L j * v j

/-- The logit, fused: per lane `q·(k + kr) + qr·k`, scaled, summed over the head's 32 lanes. -/
def logitFused (q k kr qr : Fin 32 → EReal) : EReal := ∑ d : Fin 32, (q d * (k d + kr d) + qr d * k d) * sc
/-- The logit, split: the three dot products over the head's lanes, each scaled, added left to right. -/
def logitSplit (q k kr qr : Fin 32 → EReal) : EReal :=
  (∑ d : Fin 32, q d * k d) * sc + (∑ d : Fin 32, q d * kr d) * sc + (∑ d : Fin 32, qr d * k d) * sc

/-- Lane `d` of the head that lane `c` belongs to. -/
def lane (c : Fin 128) (d : Fin 32) : Fin 128 := ⟨c.val / 32 * 32 + d.val, by have := c.isLt; have := d.isLt; omega⟩

/-- The output at batch row `b`, lane `c`, for a batch of `n` rows with the query already a matrix `[n, 128]`: the
    softmax over the 81 positions of the logits of head `c / 32`, mixing column `c` of `V`. `lg` is the arrangement of the logit. -/
def out (lg : (Fin 32 → EReal) → (Fin 32 → EReal) → (Fin 32 → EReal) → (Fin 32 → EReal) → EReal) {n : Nat}
    (Q : (⟨2, ![n, 128]⟩ : Shape).Idx → EReal) (K V Qr Kr : (⟨3, ![n, 81, 128]⟩ : Shape).Idx → EReal)
    (b : Fin n) (c : Fin 128) : EReal :=
  mix (fun j => lg (fun d => Q (ix2 b (lane c d))) (fun d => K (ix3 b j (lane c d))) (fun d => Kr (ix3 b j (lane c d)))
      (fun d => Qr (ix3 b j (lane c d))))
    (fun j => V (ix3 b j c))

/-- The query array `[n, 1, 128]` read as the matrix `[n, 128]`. -/
def asMatrix {n : Nat} (Q : (⟨3, ![n, 1, 128]⟩ : Shape).Idx → EReal) : (⟨2, ![n, 128]⟩ : Shape).Idx → EReal :=
  fun y => Q (ix3 (y 0) (0 : Fin 1) (y 1))

/-- The whole result array `[8192, 1, 128]` as a function of the five argument arrays. -/
def G (lg : (Fin 32 → EReal) → (Fin 32 → EReal) → (Fin 32 → EReal) → (Fin 32 → EReal) → EReal)
    (Q : (⟨3, ![8192, 1, 128]⟩ : Shape).Idx → EReal) (K V Qr Kr : (⟨3, ![8192, 81, 128]⟩ : Shape).Idx → EReal) :
    (⟨3, ![8192, 1, 128]⟩ : Shape).Idx → EReal :=
  fun i => out lg (asMatrix Q) K V Qr Kr (i 0) (i 2)

theorem G_apply (lg : (Fin 32 → EReal) → (Fin 32 → EReal) → (Fin 32 → EReal) → (Fin 32 → EReal) → EReal)
    (Q : (⟨3, ![8192, 1, 128]⟩ : Shape).Idx → EReal) (K V Qr Kr : (⟨3, ![8192, 81, 128]⟩ : Shape).Idx → EReal)
    (b : Fin 8192) (z : Fin 1) (c : Fin 128) : G lg Q K V Qr Kr (ix3 b z c) = out lg (asMatrix Q) K V Qr Kr b c := rfl

theorem asMatrix_apply {n : Nat} (Q : (⟨3, ![n, 1, 128]⟩ : Shape).Idx → EReal) (b : Fin n) (l : Fin 128) :
    asMatrix Q (ix2 b l) = Q (ix3 b (0 : Fin 1) l) := rfl

/-- Two arrangements of the logit that agree on the rows actually read give the same output. -/
theorem out_congr {lg lg' : (Fin 32 → EReal) → (Fin 32 → EReal) → (Fin 32 → EReal) → (Fin 32 → EReal) → EReal} {n : Nat}
    (Q : (⟨2, ![n, 128]⟩ : Shape).Idx → EReal) (K V Qr Kr : (⟨3, ![n, 81, 128]⟩ : Shape).Idx → EReal) (b : Fin n) (c : Fin 128)
    (h : ∀ j : Fin 81, lg (fun d => Q (ix2 b (lane c d))) (fun d => K (ix3 b j (lane c d))) (fun d => Kr (ix3 b j (lane c d)))
        (fun d => Qr (ix3 b j (lane c d)))
      = lg' (fun d => Q (ix2 b (lane c d))) (fun d => K (ix3 b j (lane c d))) (fun d => Kr (ix3 b j (lane c d)))
        (fun d => Qr (ix3 b j (lane c d)))) :
    out lg Q K V Qr Kr b c = out lg' Q K V Qr Kr b c := by
  unfold out
  exact congrArg (fun L => mix L (fun j => V (ix3 b j c))) (funext h)

end Cert.Attn

end
-- ==== Proof.Algebra.lean ====
/-
  On finite entries the fused and the split arrangement of the logit agree: distributivity of the product over the
  sum, on the reals.
-/
import proofs.«155985_j88862873354524_3_alg».proof.Proof.Spec

noncomputable section

open scoped BigOperators

namespace Cert.Attn

open Idealize.ShloMosaic Idealize.ShloMosaic.ValueIdx

/-- The scale word denotes a real number. -/
theorem sc_real : ∃ r : ℝ, sc = (r : EReal) := by
  -- the exponent field of the word is 124: neither all ones (an infinity or junk) nor zero (a subnormal), so the
  -- word is a normal number, a real by definition
  unfold sc Ideal.ofBits Ideal.ieee
  simp only []
  have h1 : ((0x3E3504F3#32 : BitVec 32).extractLsb' 23 8).toNat = 124 := by decide
  rw [h1]
  rw [if_neg (by norm_num), if_neg (by norm_num)]
  exact ⟨_, rfl⟩

/-- The coercion of the reals into the extended reals commutes with finite sums. -/
theorem coe_sum {ι : Type*} (s : Finset ι) (f : ι → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The two arrangements of the logit agree on real entries. -/
theorem logit_eq (q k kr qr : Fin 32 → EReal) (hq : ∀ d, ∃ r : ℝ, q d = (r : EReal)) (hk : ∀ d, ∃ r : ℝ, k d = (r : EReal))
    (hkr : ∀ d, ∃ r : ℝ, kr d = (r : EReal)) (hqr : ∀ d, ∃ r : ℝ, qr d = (r : EReal)) :
    logitFused q k kr qr = logitSplit q k kr qr := by
  obtain ⟨s, hs⟩ := sc_real
  choose q' hq' using hq
  choose k' hk' using hk
  choose kr' hkr' using hkr
  choose qr' hqr' using hqr
  unfold logitFused logitSplit
  -- every entry is the coercion of a real: both sides are coercions of real expressions
  simp only [hq', hk', hkr', hqr', hs]
  simp only [← EReal.coe_mul, ← EReal.coe_add, ← coe_sum]
  -- in the reals: distribute the scale over each sum, then compare term by term
  congr 1
  rw [Finset.sum_mul, Finset.sum_mul, Finset.sum_mul, ← Finset.sum_add_distrib, ← Finset.sum_add_distrib]
  exact Finset.sum_congr rfl (fun d _ => by ring)

/-- So the whole result is the same function under either arrangement, when the query, key and relative arrays are finite
    (the value array may hold anything). -/
theorem G_fused_eq_split (Q : (⟨3, ![8192, 1, 128]⟩ : Shape).Idx → EReal) (K V Qr Kr : (⟨3, ![8192, 81, 128]⟩ : Shape).Idx → EReal)
    (hQ : ∀ i, ∃ r : ℝ, Q i = (r : EReal)) (hK : ∀ i, ∃ r : ℝ, K i = (r : EReal))
    (hQr : ∀ i, ∃ r : ℝ, Qr i = (r : EReal)) (hKr : ∀ i, ∃ r : ℝ, Kr i = (r : EReal)) :
    G logitFused Q K V Qr Kr = G logitSplit Q K V Qr Kr := by
  funext i
  unfold G
  -- the rows read are rows of the finite arrays; an entry of the query matrix is an entry of the query array
  exact out_congr (asMatrix Q) K V Qr Kr (i 0) (i 2)
    (fun j => logit_eq _ _ _ _ (fun d => hQ (ix3 _ (0 : Fin 1) _)) (fun d => hK _) (fun d => hKr _) (fun d => hQr _))

end Cert.Attn

end
-- ==== Proof.Finite.lean ====
/-
  From the precondition "every float input is finite" to "every entry of every argument array is a real number".
-/
import proofs.«155985_j88862873354524_3_alg».proof.Pre_finite_inputs
import proofs.«155985_j88862873354524_3_alg».proof.Proof.Gen.Pre_finite_inputs
import Idealize.ShloMosaic.PureOps.Ideal.Laws
import Idealize.ShloMosaic.Lib.ValueIdx
import Idealize.ShloMosaic.Lib.ReduceAll

noncomputable section

namespace Cert.Attn

open Idealize.ShloMosaic Idealize.ShloMosaic.ValueIdx Cert.Pre_finite_inputs

variable [Cert.Pre_finite_inputs.Facts]

/-- The word `0x7F800000` is `+∞`: exponent field all ones, significand zero, sign clear. -/
theorem inf_word : Ideal.ofBits .f32 0x7F800000#32 = (⊤ : EReal) := by
  simp [Ideal.ofBits, Ideal.ieee]

/-- An extended real whose absolute value `max x (-x)` is below `+∞` is a real: at `⊤` the maximum is `⊤`, at `⊥` it is
    `-⊥ = ⊤`, and `⊤ < ⊤` is false. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- One entry of the elementwise test `|a| < +∞` (the bound a broadcast scalar), read at an index: the entry is a real. -/
theorem real_of_all {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) :=
  real_of_abs_lt (a i) h

/-- The rank-0 shape has one index. -/
instance : Subsingleton S_.Idx := ⟨fun a b => funext fun d => d.elim0⟩

/-- If the precondition's predicate is all ones on five arrays, every entry of each is a real number. -/
theorem finite_of_fn (a0 : FVec Ideal S8192x1x128 .f32) (a1 a2 a3 a4 : FVec Ideal S8192x81x128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the predicate at its one index: the conjunction of five "all entries pass" reductions
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  -- a reduction by `and` over all axes that came out 1 met a 1 at every entry; that entry says `|x| < +∞`
  refine ⟨fun i => ?_, fun i => ?_, fun i => ?_, fun i => ?_, fun i => ?_⟩
  · exact real_of_all a0 _ i (Host.reduce_andi_all _ _ _ _ _ h0' i)
  · exact real_of_all a1 _ i (Host.reduce_andi_all _ _ _ _ _ h1 i)
  · exact real_of_all a2 _ i (Host.reduce_andi_all _ _ _ _ _ h2 i)
  · exact real_of_all a3 _ i (Host.reduce_andi_all _ _ _ _ _ h3 i)
  · exact real_of_all a4 _ i (Host.reduce_andi_all _ _ _ _ _ h4 i)

end Cert.Attn

end
-- ==== Proof.RefValue.lean ====
/-
  The reference program's result array is the specification with the split logit.
-/
import proofs.«155985_j88862873354524_3_alg».proof.Proof.Spec
import proofs.«155985_j88862873354524_3_alg».proof.Proof.Gen.ReferenceIdeal.Read
import Idealize.ShloMosaic.PureOps.Ideal.Laws
import Idealize.ShloMosaic.Lib.Pipeline.Value
import Idealize.ShloMosaic.Lib.ValueLayout

noncomputable section

open scoped BigOperators

namespace Cert.Attn.Ref

open Idealize.ShloMosaic Idealize.ShloMosaic.ValueIdx Cert.ReferenceIdeal Cert.Attn

variable [Cert.ReferenceIdeal.Facts]

/-- Lane `d` of head `h`: position `32 h + d` of the 128 lanes. -/
def ln (h : Fin 4) (d : Fin 32) : Fin 128 := ⟨h.val * 32 + d.val, by have := h.isLt; have := d.isLt; omega⟩

/-! ### The layout stages at an index given by coordinates -/

/-- The query, split into heads and transposed, at (b, h, 0, d) is the query at (b, 0, 32 h + d). -/
theorem v1_at (x0 : (⟨S8192x1x128, .f32⟩ : BufTy).Contents (Elt Ideal)) (b : Fin 8192) (h : Fin 4) (z : Fin 1) (d : Fin 32) :
    Read.val_main_v1 (F := Ideal) x0 (ix4 b h z d) = x0 (ix3 b (0 : Fin 1) (ln h d)) := by
  rw [Read.val_main_v1_apply, Read.val_main_v0_apply]
  refine congrArg x0 (funext fun a => Fin.ext ?_)
  have hb := b.isLt; have hh := h.isLt; have hz := z.isLt; have hd := d.isLt
  match a with
  | ⟨0, _⟩ => show (((b.val * 1 + z.val) * 4 + h.val) * 32 + d.val) / 128 = b.val; omega
  | ⟨1, _⟩ => rfl
  | ⟨2, _⟩ => show (((b.val * 1 + z.val) * 4 + h.val) * 32 + d.val) % 128 = h.val * 32 + d.val; omega

/-- The reshape of a [8192, 81, 128] array into heads, at (b, j, h, d), is the array at (b, j, 32 h + d). -/
theorem idx_heads (b : Fin 8192) (j : Fin 81) (h : Fin 4) (d : Fin 32) :
    Read.idx_main_v2 (ix4 b j h d) = ix3 b j (ln h d) := by
  refine funext fun a => Fin.ext ?_
  have hb := b.isLt; have hh := h.isLt; have hj := j.isLt; have hd := d.isLt
  match a with
  | ⟨0, _⟩ => show (((b.val * 81 + j.val) * 4 + h.val) * 32 + d.val) / 10368 = b.val; omega
  | ⟨1, _⟩ => show (((b.val * 81 + j.val) * 4 + h.val) * 32 + d.val) / 128 % 81 = j.val; omega
  | ⟨2, _⟩ => show (((b.val * 81 + j.val) * 4 + h.val) * 32 + d.val) % 128 = h.val * 32 + d.val; omega

theorem idx_tr (b : Fin 8192) (h : Fin 4) (j : Fin 81) (d : Fin 32) :
    Read.idx_main_v3 (ix4 b h j d) = ix4 b j h d := by
  funext a
  match a with
  | ⟨0, _⟩ => rfl
  | ⟨1, _⟩ => rfl
  | ⟨2, _⟩ => rfl
  | ⟨3, _⟩ => rfl

theorem v3_at (x : (⟨S8192x81x128, .f32⟩ : BufTy).Contents (Elt Ideal)) (b : Fin 8192) (h : Fin 4) (j : Fin 81) (d : Fin 32) :
    Read.val_main_v3 (F := Ideal) x (ix4 b h j d) = x (ix3 b j (ln h d)) := by
  rw [Read.val_main_v3_apply, Read.val_main_v2_apply, idx_tr]
  exact congrArg x (idx_heads b j h d)

theorem v5_at (x : (⟨S8192x81x128, .f32⟩ : BufTy).Contents (Elt Ideal)) (b : Fin 8192) (h : Fin 4) (j : Fin 81) (d : Fin 32) :
    Read.val_main_v5 (F := Ideal) x (ix4 b h j d) = x (ix3 b j (ln h d)) := by
  rw [Read.val_main_v5_apply, Read.val_main_v4_apply]
  exact congrArg x ((congrArg Read.idx_main_v2 (idx_tr b h j d)).trans (idx_heads b j h d))

theorem v7_at (x : (⟨S8192x81x128, .f32⟩ : BufTy).Contents (Elt Ideal)) (b : Fin 8192) (h : Fin 4) (j : Fin 81) (d : Fin 32) :
    Read.val_main_v7 (F := Ideal) x (ix4 b h j d) = x (ix3 b j (ln h d)) := by
  rw [Read.val_main_v7_apply, Read.val_main_v6_apply]
  exact congrArg x ((congrArg Read.idx_main_v2 (idx_tr b h j d)).trans (idx_heads b j h d))

theorem v9_at (x : (⟨S8192x81x128, .f32⟩ : BufTy).Contents (Elt Ideal)) (b : Fin 8192) (h : Fin 4) (j : Fin 81) (d : Fin 32) :
    Read.val_main_v9 (F := Ideal) x (ix4 b h j d) = x (ix3 b j (ln h d)) := by
  rw [Read.val_main_v9_apply, Read.val_main_v8_apply]
  exact congrArg x ((congrArg Read.idx_main_v2 (idx_tr b h j d)).trans (idx_heads b j h d))

/-! ### The three scaled dot products and the logit at (b, h, 0, j) -/

theorem lidx10_at (b : Fin 8192) (h : Fin 4) (z : Fin 1) (j : Fin 81) (k : Fin 32) :
    Read.lidx_main_v10 (ix4 b h z j) k = ix4 b h z k := by
  funext a
  match a with
  | ⟨0, _⟩ => rfl
  | ⟨1, _⟩ => rfl
  | ⟨2, _⟩ => rfl
  | ⟨3, _⟩ => rfl

theorem ridx10_at (b : Fin 8192) (h : Fin 4) (z : Fin 1) (j : Fin 81) (k : Fin 32) :
    Read.ridx_main_v10 (ix4 b h z j) k = ix4 b h j k := by
  funext a
  match a with
  | ⟨0, _⟩ => rfl
  | ⟨1, _⟩ => rfl
  | ⟨2, _⟩ => rfl
  | ⟨3, _⟩ => rfl

/-- The scaled product of the query with the keys. -/
theorem v12_at (x0 : (⟨S8192x1x128, .f32⟩ : BufTy).Contents (Elt Ideal)) (x1 : (⟨S8192x81x128, .f32⟩ : BufTy).Contents (Elt Ideal))
    (b : Fin 8192) (h : Fin 4) (z : Fin 1) (j : Fin 81) :
    Read.val_main_v12 (F := Ideal) x0 x1 (ix4 b h z j)
      = (∑ d : Fin 32, x0 (ix3 b (0 : Fin 1) (ln h d)) * x1 (ix3 b j (ln h d))) * sc := by
  rw [Read.val_main_v12_apply, Read.val_main_v11_apply, Read.val_main_v10_apply]
  show (∑ k : Fin 32, Read.val_main_v1 (F := Ideal) x0 (Read.lidx_main_v10 (ix4 b h z j) k)
      * Read.val_main_v3 (F := Ideal) x1 (Read.ridx_main_v10 (ix4 b h z j) k)) * sc = _
  refine congrArg (· * sc) (Finset.sum_congr rfl fun k _ => ?_)
  rw [lidx10_at, ridx10_at, v1_at, v3_at]

/-- The scaled product of the query with the relative keys. -/
theorem v15_at (x0 : (⟨S8192x1x128, .f32⟩ : BufTy).Contents (Elt Ideal)) (x4 : (⟨S8192x81x128, .f32⟩ : BufTy).Contents (Elt Ideal))
    (b : Fin 8192) (h : Fin 4) (z : Fin 1) (j : Fin 81) :
    Read.val_main_v15 (F := Ideal) x0 x4 (ix4 b h z j)
      = (∑ d : Fin 32, x0 (ix3 b (0 : Fin 1) (ln h d)) * x4 (ix3 b j (ln h d))) * sc := by
  rw [Read.val_main_v15_apply, Read.val_main_v14_apply, Read.val_main_v13_apply]
  show (∑ k : Fin 32, Read.val_main_v1 (F := Ideal) x0 (Read.lidx_main_v10 (ix4 b h z j) k)
      * Read.val_main_v9 (F := Ideal) x4 (Read.ridx_main_v10 (ix4 b h z j) k)) * sc = _
  refine congrArg (· * sc) (Finset.sum_congr rfl fun k _ => ?_)
  rw [lidx10_at, ridx10_at, v1_at, v9_at]

theorem idx17_at (b : Fin 8192) (h : Fin 4) (j : Fin 81) (k : Fin 32) :
    Read.idx_main_v17 (ix3 b h j) k = ix4 b h j k := by
  funext a
  match a with
  | ⟨0, _⟩ => rfl
  | ⟨1, _⟩ => rfl
  | ⟨2, _⟩ => rfl
  | ⟨3, _⟩ => rfl

theorem idx20_at (b : Fin 8192) (h : Fin 4) (z : Fin 1) (j : Fin 81) :
    Read.idx_main_v20 (ix4 b h z j) = ix3 b h j := by
  funext a
  match a with
  | ⟨0, _⟩ => rfl
  | ⟨1, _⟩ => rfl
  | ⟨2, _⟩ => rfl

/-- The scaled product of the relative queries with the keys, broadcast. -/
theorem v20_at (x1 x3 : (⟨S8192x81x128, .f32⟩ : BufTy).Contents (Elt Ideal))
    (b : Fin 8192) (h : Fin 4) (z : Fin 1) (j : Fin 81) :
    Read.val_main_v20 (F := Ideal) x1 x3 (ix4 b h z j)
      = (∑ d : Fin 32, x3 (ix3 b j (ln h d)) * x1 (ix3 b j (ln h d))) * sc := by
  rw [Read.val_main_v20_apply, idx20_at, Read.val_main_v19_apply, Read.val_main_v18_apply, Read.val_main_v17_apply]
  show (Ideal.ofBits .f32 0x00000000#32 + ∑ k : Fin 32, Read.val_main_v16 (F := Ideal) x1 x3 (Read.idx_main_v17 (ix3 b h j) k)) * sc = _
  rw [Ideal.ofBits_zero_f32, zero_add]
  refine congrArg (· * sc) (Finset.sum_congr rfl fun k _ => ?_)
  rw [idx17_at, Read.val_main_v16_apply, v7_at, v3_at]
  rfl

/-- The row of 81 logits of batch row `b` and head `h`, in the split arrangement. -/
def L (x0 : (⟨S8192x1x128, .f32⟩ : BufTy).Contents (Elt Ideal)) (x1 x3 x4 : (⟨S8192x81x128, .f32⟩ : BufTy).Contents (Elt Ideal))
    (b : Fin 8192) (h : Fin 4) : Fin 81 → EReal :=
  fun j => logitSplit (fun d => x0 (ix3 b (0 : Fin 1) (ln h d))) (fun d => x1 (ix3 b j (ln h d)))
    (fun d => x4 (ix3 b j (ln h d))) (fun d => x3 (ix3 b j (ln h d)))

theorem v22_at (x0 : (⟨S8192x1x128, .f32⟩ : BufTy).Contents (Elt Ideal)) (x1 x3 x4 : (⟨S8192x81x128, .f32⟩ : BufTy).Contents (Elt Ideal))
    (b : Fin 8192) (h : Fin 4) (z : Fin 1) (j : Fin 81) :
    Read.val_main_v22 (F := Ideal) x0 x1 x3 x4 (ix4 b h z j) = L x0 x1 x3 x4 b h j := by
  rw [Read.val_main_v22_apply, Read.val_main_v21_apply, v12_at, v15_at, v20_at]
  rfl

/-! ### The row maximum -/

/-- A result index (b, h, 0) of the reduction over the last axis, with position `k` put back, is (b, h, 0, k). -/
theorem lift23_at (hR : S8192x4x1x81.Reduces [3] S8192x4x1) (b : Fin 8192) (h : Fin 4) (z : Fin 1)
    (k : Fin (S8192x4x1x81.size 3)) : hR.lift (ix3 b h z) k = ix4 b h z (⟨k.val, k.isLt⟩ : Fin 81) := by
  funext c; apply Fin.ext
  fin_cases c <;> rfl

/-- A fold of `max` is at least the value it starts from. -/
theorem max_fold_self (m : EReal) (f : Fin 81 → EReal) :
    max m ((Finset.univ : Finset (Fin 81)).fold max m f) = (Finset.univ : Finset (Fin 81)).fold max m f :=
  max_eq_right ((Finset.le_fold_max m).2 (Or.inl le_rfl))

/-- The reduce-max over the 81 positions, from the word of `-inf`, is the row maximum of the logits. -/
theorem v23_at (x0 : (⟨S8192x1x128, .f32⟩ : BufTy).Contents (Elt Ideal)) (x1 x3 x4 : (⟨S8192x81x128, .f32⟩ : BufTy).Contents (Elt Ideal))
    (b : Fin 8192) (h : Fin 4) (z : Fin 1) :
    Read.val_main_v23 (F := Ideal) x0 x1 x3 x4 (ix3 b h z) = rowMax (L x0 x1 x3 x4 b h) := by
  have hR : S8192x4x1x81.Reduces [3] S8192x4x1 := by decide
  unfold Read.val_main_v23
  refine (Host.reduce_eq_fold_single FloatOps.maximumf _ _ _ hR _ _).trans ?_
  have hf : (Read.val_main_v22 (F := Ideal) x0 x1 x3 x4 ∘ hR.lift (ix3 b h z)) = L x0 x1 x3 x4 b h :=
    funext fun k => (congrArg (Read.val_main_v22 (F := Ideal) x0 x1 x3 x4) (lift23_at hR b h z k)).trans
      (v22_at x0 x1 x3 x4 b h z ⟨k.val, k.isLt⟩)
  rw [hf]
  rfl

theorem idx26_at (b : Fin 8192) (h : Fin 4) (z z' : Fin 1) :
    Read.idx_main_v26 (ix4 b h z z') = ix3 b h (0 : Fin 1) := by
  funext a
  match a with
  | ⟨0, _⟩ => rfl
  | ⟨1, _⟩ => rfl
  | ⟨2, _⟩ => rfl

theorem idx27_at (b : Fin 8192) (h : Fin 4) (z : Fin 1) (j : Fin 81) :
    Read.idx_main_v27 (ix4 b h z j) = ix4 b h (0 : Fin 1) (0 : Fin 1) := by
  funext a
  match a with
  | ⟨0, _⟩ => rfl
  | ⟨1, _⟩ => rfl
  | ⟨2, _⟩ => rfl
  | ⟨3, _⟩ => rfl

/-- The maximum of `-inf` with the reduce-max is the row maximum again. -/
theorem v25_at (x0 : (⟨S8192x1x128, .f32⟩ : BufTy).Contents (Elt Ideal)) (x1 x3 x4 : (⟨S8192x81x128, .f32⟩ : BufTy).Contents (Elt Ideal))
    (b : Fin 8192) (h : Fin 4) (z : Fin 1) :
    Read.val_main_v25 (F := Ideal) x0 x1 x3 x4 (ix3 b h z) = rowMax (L x0 x1 x3 x4 b h) := by
  rw [Read.val_main_v25_apply, Read.val_main_v24_apply, v23_at]
  exact max_fold_self ninf (L x0 x1 x3 x4 b h)

/-- The shifted exponential at (b, h, 0, j). -/
theorem v29_at (x0 : (⟨S8192x1x128, .f32⟩ : BufTy).Contents (Elt Ideal)) (x1 x3 x4 : (⟨S8192x81x128, .f32⟩ : BufTy).Contents (Elt Ideal))
    (b : Fin 8192) (h : Fin 4) (z : Fin 1) (j : Fin 81) :
    Read.val_main_v29 (F := Ideal) x0 x1 x3 x4 (ix4 b h z j) = expRow (L x0 x1 x3 x4 b h) j := by
  rw [Read.val_main_v29_apply, Read.val_main_v28_apply, Read.val_main_v27_apply, idx27_at, Read.val_main_v26_apply, idx26_at,
    v25_at, v22_at]
  rfl

/-! ### The sum of the exponentials, the weights, and the weighted sum of the values -/

theorem idx30_at (b : Fin 8192) (h : Fin 4) (z : Fin 1) (k : Fin 81) :
    Read.idx_main_v30 (ix3 b h z) k = ix4 b h z k := by
  funext a
  match a with
  | ⟨0, _⟩ => rfl
  | ⟨1, _⟩ => rfl
  | ⟨2, _⟩ => rfl
  | ⟨3, _⟩ => rfl

theorem v30_at (x0 : (⟨S8192x1x128, .f32⟩ : BufTy).Contents (Elt Ideal)) (x1 x3 x4 : (⟨S8192x81x128, .f32⟩ : BufTy).Contents (Elt Ideal))
    (b : Fin 8192) (h : Fin 4) (z : Fin 1) :
    Read.val_main_v30 (F := Ideal) x0 x1 x3 x4 (ix3 b h z) = ∑ k : Fin 81, expRow (L x0 x1 x3 x4 b h) k := by
  rw [Read.val_main_v30_apply]
  show Ideal.ofBits .f32 0x00000000#32 + ∑ k : Fin 81, Read.val_main_v29 (F := Ideal) x0 x1 x3 x4 (Read.idx_main_v30 (ix3 b h z) k) = _
  rw [Ideal.ofBits_zero_f32, zero_add]
  refine Finset.sum_congr rfl fun k _ => ?_
  rw [idx30_at, v29_at]

theorem idx31_at (b : Fin 8192) (h : Fin 4) (z z' : Fin 1) :
    Read.idx_main_v31 (ix4 b h z z') = ix3 b h (0 : Fin 1) := by
  funext a
  match a with
  | ⟨0, _⟩ => rfl
  | ⟨1, _⟩ => rfl
  | ⟨2, _⟩ => rfl

theorem idx32_at (b : Fin 8192) (h : Fin 4) (z : Fin 1) (j : Fin 81) :
    Read.idx_main_v32 (ix4 b h z j) = ix4 b h (0 : Fin 1) (0 : Fin 1) := by
  funext a
  match a with
  | ⟨0, _⟩ => rfl
  | ⟨1, _⟩ => rfl
  | ⟨2, _⟩ => rfl
  | ⟨3, _⟩ => rfl

/-- The softmax weight at (b, h, 0, j). -/
theorem v33_at (x0 : (⟨S8192x1x128, .f32⟩ : BufTy).Contents (Elt Ideal)) (x1 x3 x4 : (⟨S8192x81x128, .f32⟩ : BufTy).Contents (Elt Ideal))
    (b : Fin 8192) (h : Fin 4) (z : Fin 1) (j : Fin 81) :
    Read.val_main_v33 (F := Ideal) x0 x1 x3 x4 (ix4 b h z j) = weight (L x0 x1 x3 x4 b h) j := by
  rw [Read.val_main_v33_apply, Read.val_main_v32_apply, idx32_at, Read.val_main_v31_apply, idx31_at, v30_at, v29_at]
  rfl

theorem lidx34_at (b : Fin 8192) (h : Fin 4) (z : Fin 1) (d : Fin 32) (k : Fin 81) :
    Read.lidx_main_v34 (ix4 b h z d) k = ix4 b h z k := by
  funext a
  match a with
  | ⟨0, _⟩ => rfl
  | ⟨1, _⟩ => rfl
  | ⟨2, _⟩ => rfl
  | ⟨3, _⟩ => rfl

theorem ridx34_at (b : Fin 8192) (h : Fin 4) (z : Fin 1) (d : Fin 32) (k : Fin 81) :
    Read.ridx_main_v34 (ix4 b h z d) k = ix4 b h k d := by
  funext a
  match a with
  | ⟨0, _⟩ => rfl
  | ⟨1, _⟩ => rfl
  | ⟨2, _⟩ => rfl
  | ⟨3, _⟩ => rfl

/-- The weighted sum of the values at (b, h, 0, d). -/
theorem v34_at (x0 : (⟨S8192x1x128, .f32⟩ : BufTy).Contents (Elt Ideal)) (x1 x2 x3 x4 : (⟨S8192x81x128, .f32⟩ : BufTy).Contents (Elt Ideal))
    (b : Fin 8192) (h : Fin 4) (z : Fin 1) (d : Fin 32) :
    Read.val_main_v34 (F := Ideal) x0 x1 x2 x3 x4 (ix4 b h z d)
      = ∑ j : Fin 81, weight (L x0 x1 x3 x4 b h) j * x2 (ix3 b j (ln h d)) := by
  rw [Read.val_main_v34_apply]
  refine Finset.sum_congr rfl fun k _ => ?_
  rw [lidx34_at, ridx34_at, v33_at, v5_at]

/-! ### Back to [8192, 1, 128] -/

/-- Lane `c` of the result is lane `c % 32` of head `c / 32`. -/
theorem idx36_at (b : Fin 8192) (z : Fin 1) (c : Fin 128) :
    Read.idx_main_v36 (ix3 b z c)
      = ix4 b (0 : Fin 1) (⟨c.val / 32, by have := c.isLt; omega⟩ : Fin 4) (⟨c.val % 32, Nat.mod_lt _ (by decide)⟩ : Fin 32) := by
  refine funext fun a => Fin.ext ?_
  have hb := b.isLt; have hz := z.isLt; have hc := c.isLt
  match a with
  | ⟨0, _⟩ => show ((b.val * 1 + z.val) * 128 + c.val) / 128 = b.val; omega
  | ⟨1, _⟩ => rfl
  | ⟨2, _⟩ => show ((b.val * 1 + z.val) * 128 + c.val) / 32 % 4 = c.val / 32; omega
  | ⟨3, _⟩ => show ((b.val * 1 + z.val) * 128 + c.val) % 32 = c.val % 32; omega

theorem idx35_at (b : Fin 8192) (z : Fin 1) (h : Fin 4) (d : Fin 32) :
    Read.idx_main_v35 (ix4 b z h d) = ix4 b h z d := by
  funext a
  match a with
  | ⟨0, _⟩ => rfl
  | ⟨1, _⟩ => rfl
  | ⟨2, _⟩ => rfl
  | ⟨3, _⟩ => rfl

/-- The reference's last stage, as a function of the five argument arrays, is the specification with the split logit. -/
theorem ref_value (x0 : (⟨S8192x1x128, .f32⟩ : BufTy).Contents (Elt Ideal)) (x1 x2 x3 x4 : (⟨S8192x81x128, .f32⟩ : BufTy).Contents (Elt Ideal)) :
    Cert.ReferenceIdeal.Read.val_main_v36 (F := Ideal) x0 x1 x2 x3 x4 = G logitSplit x0 x1 x2 x3 x4 := by
  funext i
  obtain ⟨b, z, c, rfl⟩ : ∃ (b : Fin 8192) (z : Fin 1) (c : Fin 128), i = ix3 b z c := ⟨i 0, i 1, i 2, eq_ix3 i⟩
  rw [Read.val_main_v36_apply, idx36_at, Read.val_main_v35_apply, idx35_at, v34_at, G_apply]
  have hc : ln (⟨c.val / 32, by have := c.isLt; omega⟩ : Fin 4) (⟨c.val % 32, Nat.mod_lt _ (by decide)⟩ : Fin 32) = c :=
    Fin.ext (by show c.val / 32 * 32 + c.val % 32 = c.val; omega)
  rw [hc]
  rfl

end Cert.Attn.Ref

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.HeadWeights.lean ====
/-
  The softmax weights of ONE head, as the kernel computes them from the block of scaled products: the head's 32 lanes
  are sliced out at a lane offset, summed to a logit per (row, position), and the 81 logits of a row go through
  maximum, shift, exponential, sum and quotient. Read at (row p, position j) this is the weight of position j in the
  softmax of that row's logits.
-/
import proofs.«155985_j88862873354524_3_alg».proof.Proof.Spec
import proofs.«155985_j88862873354524_3_alg».proof.Proof.LibColumnLayout
import proofs.«155985_j88862873354524_3_alg».proof.KernelIdeal
import Idealize.ShloMosaic.PureOps.Ideal.Laws
import Idealize.ShloMosaic.Lib.Pipeline.Value
import Idealize.ShloMosaic.Lib.ValueLayout

noncomputable section

open scoped BigOperators

namespace Cert.Attn.Kern

open Idealize.ShloMosaic Idealize.ShloMosaic.ValueIdx Cert.KernelIdeal Cert.KernelIdeal.Facts₀ Cert.Attn

variable [Cert.KernelIdeal.Facts]

/-- One head's softmax weights from the scaled products `T`, the head's lanes starting at lane `o`: the kernel's own
    operations, in its order. -/
def headWeights (T : FVec Ideal S64x81x128 .f32) (o : Nat) (hs : S64x81x128.Slices ![0, 0, o] S64x81x32) : FVec Ideal S64x81 .f32 :=
  have v14 : FVec Ideal S64x81x32 .f32 := extractStridedSlice S64x81x32 ![0, 0, o] T hs
  have v15 : FVec Ideal S64x81 .f32 := multiReduction .add [2] S64x81 v14 0x00000000#32 reduces_S64x81x32_S64x81 (.inl rfl) rfl
  have v16 : FVec Ideal S64 .f32 := multiReduction .maximumf [1] S64 v15 0xFF800000#32 reduces_S64x81_S64 (.inl rfl) rfl
  have v17 : FVec Ideal S64x1 .f32 := shapeCast S64x1 v16 shapeCasts_S64_S64x1
  have v18 : FVec Ideal S64x81 .f32 := broadcastTo S64x81 v17 broadcasts_S64x1_S64x81
  have v19 : FVec Ideal S64x81 .f32 := subf v15 v18
  have v20 : FVec Ideal S64x81 .f32 := exp v19
  have v21 : FVec Ideal S64 .f32 := multiReduction .add [1] S64 v20 0x00000000#32 reduces_S64x81_S64 (.inl rfl) rfl
  have v22 : FVec Ideal S64x1 .f32 := shapeCast S64x1 v21 shapeCasts_S64_S64x1
  have v23 : FVec Ideal S64x81 .f32 := broadcastTo S64x81 v22 broadcasts_S64x1_S64x81
  divf v20 v23

/-- The index inserted on the last axis of a [64, 81, 32] block over (p, j) is (p, j, k). -/
theorem hw_lift3 (h : S64x81x32.Reduces [2] S64x81) (p : Fin 64) (j : Fin 81) (k : Fin 32) :
    h.lift (ix2 p j) k = ix3 p j k := by
  funext ax
  match ax with
  | ⟨0, _⟩ => rfl
  | ⟨1, _⟩ => rfl
  | ⟨2, _⟩ => rfl

/-- The index inserted on the last axis of a [64, 81] block over p is (p, k). -/
theorem hw_lift2 (h : S64x81.Reduces [1] S64) (p : Fin 64) (k : Fin 81) :
    h.lift (ix1 p) k = ix2 p k := by
  funext ax
  match ax with
  | ⟨0, _⟩ => rfl
  | ⟨1, _⟩ => rfl

/-- The lane slice at (p, j, d) reads the block at (p, j, o + d). -/
theorem hw_slice_apply (T : FVec Ideal S64x81x128 .f32) (o : Nat) (ho : o + 32 ≤ 128)
    (hs : S64x81x128.Slices ![0, 0, o] S64x81x32) (p : Fin 64) (j : Fin 81) (d : Fin 32) :
    extractStridedSlice S64x81x32 ![0, 0, o] T hs (ix3 p j d)
      = T (ix3 p j (⟨o + d.val, by have := d.isLt; omega⟩ : Fin 128)) :=
  extractStridedSlice_apply _ _ _ _ _ (fun ax => by
    match ax with
    | ⟨0, _⟩ => exact (Nat.zero_add _).symm
    | ⟨1, _⟩ => exact (Nat.zero_add _).symm
    | ⟨2, _⟩ => rfl)

/-- The logit at (p, j): the sum of the head's 32 lanes of the block. -/
theorem hw_logits_apply (T : FVec Ideal S64x81x128 .f32) (o : Nat) (ho : o + 32 ≤ 128)
    (hs : S64x81x128.Slices ![0, 0, o] S64x81x32) (p : Fin 64) (j : Fin 81) :
    multiReduction .add [2] S64x81 (extractStridedSlice S64x81x32 ![0, 0, o] T hs) 0x00000000#32
        reduces_S64x81x32_S64x81 (.inl rfl) rfl (ix2 p j)
      = ∑ d : Fin 32, T (ix3 p j (⟨o + d.val, by have := d.isLt; omega⟩ : Fin 128)) := by
  refine (Ideal.multiReduction_add_single _ _ _ _ _ _).trans ?_
  exact Finset.sum_congr rfl fun d _ =>
    (congrArg (extractStridedSlice S64x81x32 ![0, 0, o] T hs) (hw_lift3 _ p j d)).trans (hw_slice_apply T o ho hs p j d)

/-- The maximum over a row of a [64, 81] block, folded from the word of -inf, is the row maximum of the specification. -/
theorem hw_rowMax_apply (X : FVec Ideal S64x81 .f32) (p : Fin 64) :
    multiReduction .maximumf [1] S64 X 0xFF800000#32 reduces_S64x81_S64 (.inl rfl) rfl (ix1 p)
      = rowMax (fun k : Fin 81 => X (ix2 p k)) := by
  refine (Ideal.multiReduction_maximumf_single _ _ _ _ _ _).trans ?_
  have hrow : (X ∘ reduces_S64x81_S64.lift (ix1 p)) = fun k : Fin 81 => X (ix2 p k) :=
    funext fun k => congrArg X (hw_lift2 _ p k)
  exact congrArg (fun f : Fin 81 → EReal => (Finset.univ : Finset (Fin 81)).fold max ninf f) hrow

/-- The sum over a row of a [64, 81] block. -/
theorem hw_rowSum_apply (X : FVec Ideal S64x81 .f32) (p : Fin 64) :
    multiReduction .add [1] S64 X 0x00000000#32 reduces_S64x81_S64 (.inl rfl) rfl (ix1 p)
      = ∑ k : Fin 81, X (ix2 p k) := by
  refine (Ideal.multiReduction_add_single _ _ _ _ _ _).trans ?_
  exact Finset.sum_congr rfl fun k _ => congrArg X (hw_lift2 _ p k)

/-- A vector [64] made a column and spread over the 81 positions reads, at (p, j), the vector at p. -/
theorem hw_column_apply (x : FVec Ideal S64 .f32) (p : Fin 64) (j : Fin 81) :
    broadcastTo S64x81 (shapeCast S64x1 x shapeCasts_S64_S64x1) broadcasts_S64x1_S64x81 (ix2 p j) = x (ix1 p) :=
  (PhysLoss.broadcastTo_a1_ab_apply _ _ p j).trans (PhysLoss.shapeCast_a_a1_apply _ _ p 0)

/-- The block of shifted exponentials of a [64, 81] block of logits: each row's maximum is made a column, spread over
    the 81 positions and subtracted, and the difference is exponentiated. -/
def hwShiftExp (X : FVec Ideal S64x81 .f32) : FVec Ideal S64x81 .f32 :=
  exp (subf X (broadcastTo S64x81 (shapeCast S64x1
    (multiReduction .maximumf [1] S64 X 0xFF800000#32 reduces_S64x81_S64 (.inl rfl) rfl) shapeCasts_S64_S64x1)
    broadcasts_S64x1_S64x81))

/-- At (p, k) the shifted exponential is the specification's, of row p of the block. -/
theorem hwShiftExp_apply (X : FVec Ideal S64x81 .f32) (p : Fin 64) (k : Fin 81) :
    hwShiftExp X (ix2 p k) = expRow (fun k' : Fin 81 => X (ix2 p k')) k := by
  show Ideal.exp (X (ix2 p k) - broadcastTo S64x81 (shapeCast S64x1
    (multiReduction .maximumf [1] S64 X 0xFF800000#32 reduces_S64x81_S64 (.inl rfl) rfl) shapeCasts_S64_S64x1)
    broadcasts_S64x1_S64x81 (ix2 p k)) = _
  rw [hw_column_apply, hw_rowMax_apply]
  rfl

/-- The quotient of the shifted exponentials by their row sums (each sum made a column and spread over the 81
    positions), read at (p, j), is the softmax weight of position j in row p of the block of logits. -/
theorem hw_softmax_apply (X : FVec Ideal S64x81 .f32) (p : Fin 64) (j : Fin 81) :
    divf (hwShiftExp X) (broadcastTo S64x81 (shapeCast S64x1
        (multiReduction .add [1] S64 (hwShiftExp X) 0x00000000#32 reduces_S64x81_S64 (.inl rfl) rfl) shapeCasts_S64_S64x1)
        broadcasts_S64x1_S64x81) (ix2 p j)
      = weight (fun k : Fin 81 => X (ix2 p k)) j := by
  show Ideal.div (hwShiftExp X (ix2 p j)) (broadcastTo S64x81 (shapeCast S64x1
        (multiReduction .add [1] S64 (hwShiftExp X) 0x00000000#32 reduces_S64x81_S64 (.inl rfl) rfl) shapeCasts_S64_S64x1)
        broadcasts_S64x1_S64x81 (ix2 p j)) = _
  rw [hw_column_apply, hw_rowSum_apply, hwShiftExp_apply]
  unfold weight
  exact congrArg (Ideal.div _) (Finset.sum_congr rfl fun k _ => hwShiftExp_apply X p k)

/-- The head's weights are the quotient of the shifted exponentials of its block of logits by their row sums: the
    definition with its intermediate blocks substituted. -/
theorem headWeights_eq (T : FVec Ideal S64x81x128 .f32) (o : Nat) (hs : S64x81x128.Slices ![0, 0, o] S64x81x32) :
    headWeights T o hs = divf (hwShiftExp (multiReduction .add [2] S64x81 (extractStridedSlice S64x81x32 ![0, 0, o] T hs) 0x00000000#32
      reduces_S64x81x32_S64x81 (.inl rfl) rfl))
          (broadcastTo S64x81 (shapeCast S64x1
            (multiReduction .add [1] S64 (hwShiftExp (multiReduction .add [2] S64x81 (extractStridedSlice S64x81x32 ![0, 0, o] T hs) 0x00000000#32
      reduces_S64x81x32_S64x81 (.inl rfl) rfl)) 0x00000000#32 reduces_S64x81_S64 (.inl rfl) rfl)
            shapeCasts_S64_S64x1) broadcasts_S64x1_S64x81) := by
  unfold headWeights hwShiftExp
  rfl

/-- At (row `p`, position `j`) the head's weights are the softmax weight of `j` among the row's 81 logits, each logit the
    sum of the head's 32 lanes of `T`. -/
theorem headWeights_apply (T : FVec Ideal S64x81x128 .f32) (o : Nat) (ho : o + 32 ≤ 128)
    (hs : S64x81x128.Slices ![0, 0, o] S64x81x32) (p : Fin 64) (j : Fin 81) :
    headWeights T o hs (ix2 p j)
      = weight (fun j' : Fin 81 => ∑ d : Fin 32, T (ix3 p j' (⟨o + d.val, by have := d.isLt; omega⟩ : Fin 128))) j := by
  -- the head's weights are the softmax, row by row, of its block of logits …
  refine (congrFun (headWeights_eq T o hs) (ix2 p j)).trans ?_
  refine (hw_softmax_apply _ p j).trans ?_
  -- … and each logit of row p is the sum of the head's 32 lanes
  exact congrArg (fun L : Fin 81 → EReal => weight L j) (funext fun j' => hw_logits_apply T o ho hs p j')

end Cert.Attn.Kern

end
-- ==== Proof.ConcatHeads.lean ====
/-
  The last operation of the kernel lays the four heads' [64, 32] results side by side along the lane axis into one
  [64, 128] block. Read at row p and lane 32·h + d, the block is head h's piece at (p, d).
-/
import proofs.«155985_j88862873354524_3_alg».proof.Proof.Spec
import proofs.«155985_j88862873354524_3_alg».proof.KernelIdeal
import Idealize.ShloMosaic.Lib.Pipeline.Value
import Idealize.ShloMosaic.Lib.ValueIdx

noncomputable section

namespace Cert.Attn.Kern

open Idealize.ShloMosaic Idealize.ShloMosaic.ValueIdx Cert.KernelIdeal Cert.KernelIdeal.Facts₀

variable [Cert.KernelIdeal.Facts]

/-- The concatenation at (p, c), when lane c lies in piece k (the k-th of the list, 32 lanes each, so k·32 lanes come
    before it) at offset d: it is that piece at (p, d). -/
theorem concat_piece (a0 a1 a2 a3 : FVec Ideal S64x32 .f32) (p : Fin 64) (d : Fin 32) (c : Fin 128)
    (k : Nat) (hk : k < 4) (x : FVec Ideal S64x32 .f32)
    (hx : ([⟨S64x32, a0⟩, ⟨S64x32, a1⟩, ⟨S64x32, a2⟩, ⟨S64x32, a3⟩] : List ((s : Shape) × (s.Idx → Ideal .f32)))[k]'hk = ⟨S64x32, x⟩)
    (hc : k * 32 + d.val = c.val) :
    concatenate S64x128 1 [⟨S64x32, a0⟩, ⟨S64x32, a1⟩, ⟨S64x32, a2⟩, ⟨S64x32, a3⟩] concatenates_S64x32_S64x32_S64x32_S64x32_S64x128_d1
        (ix2 p c) = x (ix2 p d) := by
  refine concatenate_apply_piece (1 : Fin S64x128.rank)
    ([⟨S64x32, a0⟩, ⟨S64x32, a1⟩, ⟨S64x32, a2⟩, ⟨S64x32, a3⟩] : List ((s : Shape) × (s.Idx → Ideal .f32)))
    concatenates_S64x32_S64x32_S64x32_S64x32_S64x128_d1 (ix2 p c) k hk S64x32 x hx rfl (k * 32) ?_ (ix2 p d) ?_ ?_
  · -- the lanes before piece k: k pieces of 32 lanes
    match k, hk with
    | 0, _ => rfl
    | 1, _ => rfl
    | 2, _ => rfl
    | 3, _ => rfl
  · -- off the lane axis (the row) the two indices agree
    intro b hb
    match b, hb with
    | ⟨0, _⟩, _ => rfl
    | ⟨1, _⟩, hb => exact absurd rfl hb
  · exact hc

/-- The four heads' pieces side by side, read at row `p` and lane `32·h + d`: head `h`'s piece at `(p, d)`. -/
theorem concat_heads_apply (a0 a1 a2 a3 : FVec Ideal S64x32 .f32) (p : Fin 64) (h : Fin 4) (d : Fin 32) :
    concatenate S64x128 1 [⟨S64x32, a0⟩, ⟨S64x32, a1⟩, ⟨S64x32, a2⟩, ⟨S64x32, a3⟩] concatenates_S64x32_S64x32_S64x32_S64x32_S64x128_d1
        (ix2 p (⟨h.val * 32 + d.val, by have := h.isLt; have := d.isLt; omega⟩ : Fin 128))
      = (match h with | ⟨0, _⟩ => a0 | ⟨1, _⟩ => a1 | ⟨2, _⟩ => a2 | ⟨_ + 3, _⟩ => a3) (ix2 p d) := by
  match h with
  | ⟨0, _⟩ => exact concat_piece a0 a1 a2 a3 p d _ 0 (by omega) a0 rfl rfl
  | ⟨1, _⟩ => exact concat_piece a0 a1 a2 a3 p d _ 1 (by omega) a1 rfl rfl
  | ⟨2, _⟩ => exact concat_piece a0 a1 a2 a3 p d _ 2 (by omega) a2 rfl rfl
  | ⟨n + 3, hn⟩ =>
    obtain rfl : n = 0 := by omega
    exact concat_piece a0 a1 a2 a3 p d _ 3 (by omega) a3 rfl rfl

end Cert.Attn.Kern

end
-- ==== Proof.Payload.lean ====
/-
  What the kernel's body leaves in its output block, read at (row p, lane c): the softmax over the 81 positions of the
  fused logits of head c / 32, mixing lane c of the value block.
-/
import proofs.«155985_j88862873354524_3_alg».proof.Proof.Spec
import proofs.«155985_j88862873354524_3_alg».proof.Proof.HeadWeights
import proofs.«155985_j88862873354524_3_alg».proof.Proof.ConcatHeads
import proofs.«155985_j88862873354524_3_alg».proof.Proof.Gen.KernelIdeal.Frame
import Idealize.ShloMosaic.PureOps.Ideal.Laws
import Idealize.ShloMosaic.Lib.Pipeline.Value
import Idealize.ShloMosaic.Lib.ValueLayout

noncomputable section

open scoped BigOperators

namespace Cert.Attn.Kern

open Idealize.ShloMosaic Idealize.ShloMosaic.ValueIdx Cert.KernelIdeal Cert.KernelIdeal.Facts₀ Cert.KernelIdeal.Gen Cert.Attn

section Layout
variable {α : Type}

/-- A matrix `[a, b]` cast to `[a, b, 1]` reads, at `(i, j, u)`, the operand at `(i, j)`. -/
theorem pay_shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A matrix `[a, b]` cast to `[a, 1, b]` reads, at `(i, u, j)`, the operand at `(i, j)`. -/
theorem pay_shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An array `[a, b, 1]` broadcast along its unit axis to `[a, b, c]` reads, at `(i, j, k)`, the operand at `(i, j, 0)`. -/
theorem pay_broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[a, 1, c]` broadcast along its unit axis to `[a, b, c]` reads, at `(i, j, k)`, the operand at `(i, 0, k)`. -/
theorem pay_broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A rank-3 array cut along its last axis from `o` reads, at `(i, j, e)`, the source at `(i, j, k)` with `k = o + e`. -/
theorem pay_slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (i : Fin n0) (j : Fin n1) (e : Fin m) (k : Fin n2) (hk : k.val = o + e.val) :
    extractStridedSlice ⟨3, ![n0, n1, m]⟩ ![0, 0, o] X h (ix3 i j e) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

end Layout

variable [Cert.KernelIdeal.Facts]

/-- The offsets `(0, 0)` are the zero offsets. -/
theorem pay_hz2 : (![0, 0] : Fin 2 → Nat) = fun _ => 0 := funext fun a => by fin_cases a <;> rfl
/-- The offsets `(0, 0, 0)` are the zero offsets. -/
theorem pay_hz3 : (![0, 0, 0] : Fin 3 → Nat) = fun _ => 0 := funext fun a => by fin_cases a <;> rfl

/-- The body stores once, through the whole output block, and loads each input block whole: what it leaves is the
    stored value as a function of the five input blocks themselves. -/
theorem out0_5_eq (x0 : Vec Ideal S64x128 .f32) (x1 x2 x3 x4 : Vec Ideal S64x81x128 .f32) :
    out0_5 (F := Ideal) x0 x1 x2 x3 x4
      = k0_pay1 x2 (k0_pay2 x0 x1 x3 x4) (k0_pay3 x0 x1 x3 x4) (k0_pay4 x0 x1 x3 x4) (k0_pay5 x0 x1 x3 x4) := by
  unfold out0_5
  rw [View.canon_unit_zero pay_hz2]
  simp only [View.ld_unit_zero (S := S64x128) pay_hz2, View.ld_unit_zero (S := S64x81x128) pay_hz3]

/-- The block of scaled products at (row `p`, position `j`, lane `l`): `q·(k + kr) + qr·k`, scaled. -/
theorem pay_scaled_apply (v0 : Vec Ideal S64x128 .f32) (v2 v4 v5 : Vec Ideal S64x81x128 .f32)
    (p : Fin 64) (j : Fin 81) (l : Fin 128) :
    k0_pay2 (F := Ideal) v0 v2 v4 v5 (ix3 p j l)
      = (v0 (ix2 p l) * (v2 (ix3 p j l) + v5 (ix3 p j l)) + v4 (ix3 p j l) * v2 (ix3 p j l)) * sc := by
  have e : ∀ (h0 : S64x128.ShapeCasts S64x128) (h1 : S64x128.ShapeCasts S64x1x128) (h2 : S64x1x128.Broadcasts S64x81x128),
      broadcastTo S64x81x128 (shapeCast S64x1x128 (shapeCast S64x128 v0 h0) h1) h2 (ix3 p j l) = v0 (ix2 p l) :=
    fun h0 h1 h2 => (pay_broadcastTo_a1c_abc_apply _ h2 p j l).trans
      ((pay_shapeCast_ab_a1b_apply _ h1 p (0 : Fin 1) l).trans (congrFun (shapeCast_self v0 h0) _))
  unfold k0_pay2
  show (broadcastTo S64x81x128 (shapeCast S64x1x128 (shapeCast S64x128 v0 _) _) _ (ix3 p j l)
      * (v2 (ix3 p j l) + v5 (ix3 p j l)) + v4 (ix3 p j l) * v2 (ix3 p j l)) * sc = _
  exact congrArg (fun t => (t * (v2 (ix3 p j l) + v5 (ix3 p j l)) + v4 (ix3 p j l) * v2 (ix3 p j l)) * sc) (e _ _ _)

/-- One head's output piece at (row `p`, lane `d` of the head): the sum over the 81 positions of the head's weight
    times the value block's lane `o + d`. -/
theorem pay_head_apply (A : FVec Ideal S64x81 .f32) (V : Vec Ideal S64x81x128 .f32) (o : Nat) (ho : o + 32 ≤ 128)
    (hs : S64x81x128.Slices ![0, 0, o] S64x81x32) (h1 : S64x81.ShapeCasts S64x81x1) (h2 : S64x81x1.Broadcasts S64x81x32)
    (hr : S64x81x32.Reduces [1] S64x32) (hφ : FKind.Formats .f32)
    (hacc : (0x00000000#32 : BitVec 32) = FKind.add.neutral .f32 hφ) (p : Fin 64) (d : Fin 32) :
    multiReduction (F := Ideal) .add [1] S64x32
        (mulf (broadcastTo S64x81x32 (shapeCast S64x81x1 A h1) h2) (extractStridedSlice S64x81x32 ![0, 0, o] V hs))
        0x00000000#32 hr hφ hacc (ix2 p d)
      = ∑ j : Fin 81, A (ix2 p j) * V (ix3 p j (⟨o + d.val, by have := d.isLt; omega⟩ : Fin 128)) := by
  refine (Ideal.multiReduction_add_single _ 0x00000000#32 hr hφ hacc (ix2 p d)).trans ?_
  show ∑ k : Fin 81, _ = _
  refine Finset.sum_congr rfl fun k _ => ?_
  have hl : hr.lift (ix2 p d) k = ix3 p k d := by
    funext a
    match a with
    | ⟨0, _⟩ => exact Fin.ext rfl
    | ⟨1, _⟩ => exact Fin.ext rfl
    | ⟨2, _⟩ => exact Fin.ext rfl
  rw [hl]
  show broadcastTo S64x81x32 (shapeCast S64x81x1 A h1) h2 (ix3 p k d)
      * extractStridedSlice S64x81x32 ![0, 0, o] V hs (ix3 p k d) = _
  rw [pay_broadcastTo_ab1_abc_apply, pay_shapeCast_ab_ab1_apply,
    pay_slice3_axis2_apply o V hs p k d ⟨o + d.val, by have := d.isLt; omega⟩ rfl]

/-- The weighted sum of one head's lane of the value block is the specification's output at that lane: the head's
    weights are the softmax of the fused logits over the head's 32 lanes, which start at lane `o = 32·(c / 32)`. -/
theorem pay_piece_eq_out (x0 : Vec Ideal S64x128 .f32) (x1 x2 x3 x4 : Vec Ideal S64x81x128 .f32) (p : Fin 64) (c : Fin 128)
    (o : Nat) (ho : o + 32 ≤ 128) (hs : S64x81x128.Slices ![0, 0, o] S64x81x32) (d0 : Fin 32)
    (hc : c.val = o + d0.val) (ho32 : o % 32 = 0) :
    ∑ j : Fin 81, headWeights (k0_pay2 x0 x1 x3 x4) o hs (ix2 p j)
        * x2 (ix3 p j (⟨o + d0.val, by have := d0.isLt; omega⟩ : Fin 128))
      = out logitFused x0 x1 x2 x3 x4 p c := by
  unfold out mix
  refine Finset.sum_congr rfl fun j _ => ?_
  rw [headWeights_apply _ o ho hs p j]
  have hcc : (⟨o + d0.val, by have := d0.isLt; omega⟩ : Fin 128) = c := Fin.ext hc.symm
  have hL : (fun j' : Fin 81 => ∑ d : Fin 32, k0_pay2 (F := Ideal) x0 x1 x3 x4
        (ix3 p j' (⟨o + d.val, by have := d.isLt; omega⟩ : Fin 128)))
      = fun j' : Fin 81 => logitFused (fun d => x0 (ix2 p (lane c d))) (fun d => x1 (ix3 p j' (lane c d)))
          (fun d => x4 (ix3 p j' (lane c d))) (fun d => x3 (ix3 p j' (lane c d))) := by
    funext j'
    unfold logitFused
    refine Finset.sum_congr rfl fun d _ => ?_
    have hl : lane c d = (⟨o + d.val, by have := d.isLt; omega⟩ : Fin 128) :=
      Fin.ext (by show c.val / 32 * 32 + d.val = o + d.val; have := d0.isLt; omega)
    beta_reduce
    rw [hl, pay_scaled_apply]
  rw [hL, hcc]

/-- The body's output block at (row `p`, lane `c`), from the five input blocks (query, key, value, relative query,
    relative key): the specification's output with the fused logit. -/
theorem out0_5_apply (x0 : Vec Ideal S64x128 .f32) (x1 x2 x3 x4 : Vec Ideal S64x81x128 .f32) (p : Fin 64) (c : Fin 128) :
    out0_5 (F := Ideal) x0 x1 x2 x3 x4 (ix2 p c) = out logitFused x0 x1 x2 x3 x4 p c := by
  rw [out0_5_eq]
  obtain ⟨h, d, rfl⟩ : ∃ (h : Fin 4) (d : Fin 32),
      c = (⟨h.val * 32 + d.val, by have := h.isLt; have := d.isLt; omega⟩ : Fin 128) :=
    ⟨⟨c.val / 32, by have := c.isLt; omega⟩, ⟨c.val % 32, by omega⟩,
      Fin.ext (by show c.val = c.val / 32 * 32 + c.val % 32; omega)⟩
  unfold k0_pay1
  refine (concat_heads_apply _ _ _ _ p h d).trans ?_
  match h with
  | ⟨0, _⟩ =>
    refine (pay_head_apply (headWeights (k0_pay2 x0 x1 x3 x4) 0 Facts₀.slices_S64x81x128_o0_0_0_S64x81x32) x2 0 (by omega) _ _ _ _ _ _ p d).trans ?_
    exact pay_piece_eq_out x0 x1 x2 x3 x4 p _ 0 (by omega) _ d (by show 0 * 32 + d.val = 0 + d.val; omega) rfl
  | ⟨1, _⟩ =>
    refine (pay_head_apply (headWeights (k0_pay2 x0 x1 x3 x4) 32 Facts₀.slices_S64x81x128_o0_0_32_S64x81x32) x2 32 (by omega) _ _ _ _ _ _ p d).trans ?_
    exact pay_piece_eq_out x0 x1 x2 x3 x4 p _ 32 (by omega) _ d (by show 1 * 32 + d.val = 32 + d.val; omega) rfl
  | ⟨2, _⟩ =>
    refine (pay_head_apply (headWeights (k0_pay2 x0 x1 x3 x4) 64 Facts₀.slices_S64x81x128_o0_0_64_S64x81x32) x2 64 (by omega) _ _ _ _ _ _ p d).trans ?_
    exact pay_piece_eq_out x0 x1 x2 x3 x4 p _ 64 (by omega) _ d (by show 2 * 32 + d.val = 64 + d.val; omega) rfl
  | ⟨3, _⟩ =>
    refine (pay_head_apply (headWeights (k0_pay2 x0 x1 x3 x4) 96 Facts₀.slices_S64x81x128_o0_0_96_S64x81x32) x2 96 (by omega) _ _ _ _ _ _ p d).trans ?_
    exact pay_piece_eq_out x0 x1 x2 x3 x4 p _ 96 (by omega) _ d (by show 3 * 32 + d.val = 96 + d.val; omega) rfl
  | ⟨n + 4, hn⟩ => exact absurd hn (by omega)

end Cert.Attn.Kern

end
-- ==== Proof.KernelValue.lean ====
/-
  The idealized kernel's result array, as one function of its argument arrays.

  The query array [8192, 1, 128] is first re-read as the matrix [8192, 128]. The grid has 128 points; point t is handed
  rows 64·t … 64·t + 63 of the query matrix and of the four [8192, 81, 128] arrays, and writes rows 64·t … 64·t + 63 of the
  output matrix. The output at a row depends on that row of each input only, so what point t writes is block t of ONE
  function of the whole arrays; the 128 blocks tile the output matrix. The output matrix is finally re-read as [8192, 1, 128].
-/
import proofs.«155985_j88862873354524_3_alg».proof.Proof.Spec
import proofs.«155985_j88862873354524_3_alg».proof.Proof.Payload
import proofs.«155985_j88862873354524_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.WholeValue

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The query matrix the region finds -/

/-- The region finds, as its first operand, the query array re-read as a matrix. -/
theorem entry_query (c : Dev nD) :
    (V m c main_v0 : S8192x128.Idx → EReal)
      = shapeCast S8192x128 (m ((c : Thread nD τ).loc main_arg0)) shapeCasts_S8192x1x128_S8192x128 := by
  show StableHlo.after hostOps0 (fun b => m (c, b)) (Proc.devRef .tc main_v0) = _
  after_results
  rfl

/-- Its entry (b, l) is the query array's entry (b, 0, l). -/
theorem entry_query_apply (c : Dev nD) (b : Fin 8192) (l : Fin 128) :
    (V m c main_v0 : S8192x128.Idx → EReal) (ix2 b l) = m ((c : Thread nD τ).loc main_arg0) (ix3 b (0 : Fin 1) l) := by
  rw [entry_query]
  exact shapeCast_apply _ shapeCasts_S8192x1x128_S8192x128 (ix2 b l) (ix3 b (0 : Fin 1) l) (by
    rw [Shape.rowMajor_val_three, Shape.rowMajor_val_two]
    show (b.val * 1 + 0) * 128 + l.val = b.val * 128 + l.val
    omega)

/-! ## The output matrix as one function of the arrays the region finds -/

/-- The output matrix [8192, 128] from the query matrix and the four [8192, 81, 128] arrays. -/
def outMatrix (Q : S8192x128.Idx → EReal) (K Vv Qr Kr : S8192x81x128.Idx → EReal) : S8192x128.Idx → EReal :=
  fun i => out logitFused Q K Vv Qr Kr (i 0) (i 1)

/-- The output at a row reads that row of each input only: if a block's rows are rows `r₀ + p` of the arrays, the
    block's output at row `p` is the arrays' output at row `r₀ + p`. -/
theorem out_of_rows {n n' : Nat} (Qb : (⟨2, ![n, 128]⟩ : Shape).Idx → EReal) (Kb Vb Qrb Krb : (⟨3, ![n, 81, 128]⟩ : Shape).Idx → EReal)
    (Q : (⟨2, ![n', 128]⟩ : Shape).Idx → EReal) (K Vv Qr Kr : (⟨3, ![n', 81, 128]⟩ : Shape).Idx → EReal)
    (p : Fin n) (r : Fin n') (c : Fin 128)
    (hQ : ∀ l, Qb (ix2 p l) = Q (ix2 r l)) (hK : ∀ j l, Kb (ix3 p j l) = K (ix3 r j l)) (hV : ∀ j l, Vb (ix3 p j l) = Vv (ix3 r j l))
    (hQr : ∀ j l, Qrb (ix3 p j l) = Qr (ix3 r j l)) (hKr : ∀ j l, Krb (ix3 p j l) = Kr (ix3 r j l)) :
    out logitFused Qb Kb Vb Qrb Krb p c = out logitFused Q K Vv Qr Kr r c := by
  unfold out
  simp only [hQ, hK, hV, hQr, hKr]

/-- The printed index maps, decided once over the grid: every window's block index along the batch axis is the output
    window's, which stays below 128; all other block indices are zero. -/
theorem index_facts : ∀ t : Fin cfg0.N,
    win0_0.index t (0 : Fin 2) = win0_5.index t (0 : Fin 2) ∧ win0_0.index t (1 : Fin 2) = 0
    ∧ win0_1.index t (0 : Fin 3) = win0_5.index t (0 : Fin 2) ∧ win0_1.index t (1 : Fin 3) = 0 ∧ win0_1.index t (2 : Fin 3) = 0
    ∧ win0_2.index t (0 : Fin 3) = win0_5.index t (0 : Fin 2) ∧ win0_2.index t (1 : Fin 3) = 0 ∧ win0_2.index t (2 : Fin 3) = 0
    ∧ win0_3.index t (0 : Fin 3) = win0_5.index t (0 : Fin 2) ∧ win0_3.index t (1 : Fin 3) = 0 ∧ win0_3.index t (2 : Fin 3) = 0
    ∧ win0_4.index t (0 : Fin 3) = win0_5.index t (0 : Fin 2) ∧ win0_4.index t (1 : Fin 3) = 0 ∧ win0_4.index t (2 : Fin 3) = 0
    ∧ win0_5.index t (0 : Fin 2) ≤ 127 ∧ win0_5.index t (1 : Fin 2) = 0 :=
  (by decide +kernel : ∀ t : Fin grid0.N, _)

/-- Every block of 64 rows of the output matrix is some point's. -/
theorem index_onto : ∀ q : Fin 128, ∃ t : Fin cfg0.N, win0_5.index t = ![q.val, 0] :=
  (by decide +kernel : ∀ q : Fin 128, ∃ t : Fin grid0.N, win0_5.index t = ![q.val, 0])

/-! ## What a point writes back -/

/-- Row `p` of point `t`'s blocks is row `64·(t's batch block) + p` of the arrays. -/
theorem block_row_lt (t : Fin cfg0.N) (p : Fin 64) : win0_5.index t (0 : Fin 2) * 64 + p.val < 8192 := by
  obtain ⟨-, -, -, -, -, -, -, -, -, -, -, -, -, -, h, -⟩ := index_facts t
  have := p.isLt
  omega

/-- The query block at (p, l) is the query matrix at that row. -/
theorem query_block (c : Dev nD) (t : Fin cfg0.N) (p : Fin 64) (l : Fin 128) :
    iblk m c 0 t (ix2 p l) = (V m c main_v0 : S8192x128.Idx → EReal) (ix2 ⟨win0_5.index t (0 : Fin 2) * 64 + p.val, block_row_lt t p⟩ l) := by
  obtain ⟨e0, e1, -⟩ := index_facts t
  show (V m c main_v0 : S8192x128.Idx → EReal) (((cfg0.win 0).blk t).view.emb (ix2 p l)) = _
  congr 1
  funext a; apply Fin.ext
  match a with
  | ⟨0, _⟩ => show win0_0.index t (0 : Fin 2) * 64 + 1 * p.val = win0_5.index t (0 : Fin 2) * 64 + p.val; omega
  | ⟨1, _⟩ => show win0_0.index t (1 : Fin 2) * 128 + 1 * l.val = l.val; omega

/-- The key, value, relative-query and relative-key blocks at (p, j, l) are the arrays at that row. -/
theorem block1 (c : Dev nD) (t : Fin cfg0.N) (p : Fin 64) (j : Fin 81) (l : Fin 128) :
    iblk m c 1 t (ix3 p j l) = (V m c main_arg1 : S8192x81x128.Idx → EReal) (ix3 ⟨win0_5.index t (0 : Fin 2) * 64 + p.val, block_row_lt t p⟩ j l) := by
  obtain ⟨-, -, a0, a1, a2, -⟩ := index_facts t
  show (V m c main_arg1 : S8192x81x128.Idx → EReal) (((cfg0.win 1).blk t).view.emb (ix3 p j l)) = _
  congr 1
  funext a; apply Fin.ext
  match a with
  | ⟨0, _⟩ => show win0_1.index t (0 : Fin 3) * 64 + 1 * p.val = win0_5.index t (0 : Fin 2) * 64 + p.val; omega
  | ⟨1, _⟩ => show win0_1.index t (1 : Fin 3) * 81 + 1 * j.val = j.val; omega
  | ⟨2, _⟩ => show win0_1.index t (2 : Fin 3) * 128 + 1 * l.val = l.val; omega

theorem block2 (c : Dev nD) (t : Fin cfg0.N) (p : Fin 64) (j : Fin 81) (l : Fin 128) :
    iblk m c 2 t (ix3 p j l) = (V m c main_arg2 : S8192x81x128.Idx → EReal) (ix3 ⟨win0_5.index t (0 : Fin 2) * 64 + p.val, block_row_lt t p⟩ j l) := by
  obtain ⟨-, -, -, -, -, a0, a1, a2, -⟩ := index_facts t
  show (V m c main_arg2 : S8192x81x128.Idx → EReal) (((cfg0.win 2).blk t).view.emb (ix3 p j l)) = _
  congr 1
  funext a; apply Fin.ext
  match a with
  | ⟨0, _⟩ => show win0_2.index t (0 : Fin 3) * 64 + 1 * p.val = win0_5.index t (0 : Fin 2) * 64 + p.val; omega
  | ⟨1, _⟩ => show win0_2.index t (1 : Fin 3) * 81 + 1 * j.val = j.val; omega
  | ⟨2, _⟩ => show win0_2.index t (2 : Fin 3) * 128 + 1 * l.val = l.val; omega

theorem block3 (c : Dev nD) (t : Fin cfg0.N) (p : Fin 64) (j : Fin 81) (l : Fin 128) :
    iblk m c 3 t (ix3 p j l) = (V m c main_arg3 : S8192x81x128.Idx → EReal) (ix3 ⟨win0_5.index t (0 : Fin 2) * 64 + p.val, block_row_lt t p⟩ j l) := by
  obtain ⟨-, -, -, -, -, -, -, -, a0, a1, a2, -⟩ := index_facts t
  show (V m c main_arg3 : S8192x81x128.Idx → EReal) (((cfg0.win 3).blk t).view.emb (ix3 p j l)) = _
  congr 1
  funext a; apply Fin.ext
  match a with
  | ⟨0, _⟩ => show win0_3.index t (0 : Fin 3) * 64 + 1 * p.val = win0_5.index t (0 : Fin 2) * 64 + p.val; omega
  | ⟨1, _⟩ => show win0_3.index t (1 : Fin 3) * 81 + 1 * j.val = j.val; omega
  | ⟨2, _⟩ => show win0_3.index t (2 : Fin 3) * 128 + 1 * l.val = l.val; omega

theorem block4 (c : Dev nD) (t : Fin cfg0.N) (p : Fin 64) (j : Fin 81) (l : Fin 128) :
    iblk m c 4 t (ix3 p j l) = (V m c main_arg4 : S8192x81x128.Idx → EReal) (ix3 ⟨win0_5.index t (0 : Fin 2) * 64 + p.val, block_row_lt t p⟩ j l) := by
  obtain ⟨-, -, -, -, -, -, -, -, -, -, -, a0, a1, a2, -⟩ := index_facts t
  show (V m c main_arg4 : S8192x81x128.Idx → EReal) (((cfg0.win 4).blk t).view.emb (ix3 p j l)) = _
  congr 1
  funext a; apply Fin.ext
  match a with
  | ⟨0, _⟩ => show win0_4.index t (0 : Fin 3) * 64 + 1 * p.val = win0_5.index t (0 : Fin 2) * 64 + p.val; omega
  | ⟨1, _⟩ => show win0_4.index t (1 : Fin 3) * 81 + 1 * j.val = j.val; omega
  | ⟨2, _⟩ => show win0_4.index t (2 : Fin 3) * 128 + 1 * l.val = l.val; omega

theorem hz : (![0, 0] : Fin 2 → Nat) = fun _ => 0 := funext fun a => by fin_cases a <;> rfl

/-- WHAT POINT `t` WRITES BACK is block `t` of the output matrix of the arrays the region finds. -/
theorem flushed_eq (c : Dev nD) (t : Fin cfg0.N) :
    (dats m 0 c).flushed 5 t = ((cfg0.win 5).blk t).view.read (Elt Ideal)
      (outMatrix (V m c main_v0) (V m c main_arg1) (V m c main_arg2) (V m c main_arg3) (V m c main_arg4)) := by
  show (cfg0.win 5).cut (grid0.coords t) ((dats m 0 c).after 5 t) = _
  rw [after0_5]
  funext y
  obtain ⟨p, l, rfl⟩ : ∃ (p : Fin 64) (l : Fin 128), y = ix2 p l := ⟨y 0, y 1, eq_ix2 y⟩
  show out0_5 (iblk m c 0 t) (iblk m c 1 t) (iblk m c 2 t) (iblk m c 3 t) (iblk m c 4 t) (ix2 p l)
    = outMatrix (V m c main_v0) (V m c main_arg1) (V m c main_arg2) (V m c main_arg3) (V m c main_arg4) (((cfg0.win 5).blk t).view.emb (ix2 p l))
  rw [Cert.Attn.Kern.out0_5_apply]
  obtain ⟨-, -, -, -, -, -, -, -, -, -, -, -, -, -, -, e1⟩ := index_facts t
  have hemb : ((cfg0.win 5).blk t).view.emb (ix2 p l) = (ix2 ⟨win0_5.index t (0 : Fin 2) * 64 + p.val, block_row_lt t p⟩ l : S8192x128.Idx) := by
    funext a; apply Fin.ext
    match a with
    | ⟨0, _⟩ => show win0_5.index t (0 : Fin 2) * 64 + 1 * p.val = win0_5.index t (0 : Fin 2) * 64 + p.val; omega
    | ⟨1, _⟩ => show win0_5.index t (1 : Fin 2) * 128 + 1 * l.val = l.val; omega
  rw [hemb]
  exact out_of_rows _ _ _ _ _ _ _ _ _ _ p _ l (fun l' => query_block m c t p l') (fun j l' => block1 m c t p j l')
    (fun j l' => block2 m c t p j l') (fun j l' => block3 m c t p j l') (fun j l' => block4 m c t p j l')

/-! ## The blocks tile the output matrix -/

/-- An index of the output matrix is in point `t`'s block iff each coordinate is in the block's range on its axis. -/
theorem mem_blk (t : Fin cfg0.N) (i : S8192x128.Idx) :
    i ∈ ((cfg0.win 5).blk t).view.set ↔ ∀ a : Fin 2, win0_5.index t a * S64x128.size a ≤ (i a).val ∧ (i a).val < win0_5.index t a * S64x128.size a + S64x128.size a := by
  show i ∈ ((View.whole main_v1).slice (win0_5.rect t)).set ↔ _
  rw [View.set_slice_whole, Rect.mem_set_unit]
  exact Iff.rfl

/-- Every index of the output matrix is in the block of the point that owns its 64 rows. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := index_onto ⟨(i 0).val / 64, by omega⟩
  have q0 : win0_5.index t (0 : Fin 2) = (i 0).val / 64 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 128 ≤ (i 1).val ∧ (i 1).val < win0_5.index t (1 : Fin 2) * 128 + 128; omega

/-- THE OUTPUT MATRIX after the region: one function of the arrays the region found. -/
theorem final (c : Dev nD) : (dats m 0 c).arrAt 5 cfg0.N
    = outMatrix (V m c main_v0) (V m c main_arg1) (V m c main_arg2) (V m c main_arg3) (V m c main_arg4) :=
  (dats m 0 c).arrAt_eq_of_cover 5 _ (fun t _ => flushed_eq m c t) cover

/-! ## The result: the output matrix re-read as [8192, 1, 128] -/

theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v2)
      = shapeCast S8192x1x128 (outMatrix (V m c main_v0) (V m c main_arg1) (V m c main_arg2) (V m c main_arg3) (V m c main_arg4))
          shapeCasts_S8192x128_S8192x1x128 := by
  rw [(h c).2 main_v2 (Pipeline.mem_restRefs_of main_v2 (by decide) (by decide))]
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = outMatrix (V m c main_v0) (V m c main_arg1) (V m c main_arg2) (V m c main_arg3) (V m c main_arg4) :=
    (Pipeline.withArrays_arr spec0 launch0.win.arr_inj c _ _ 5).trans (final m c)
  rw [e]
  rfl

/-- The query matrix the region finds is the query array read as a matrix. -/
theorem entry_query_asMatrix (c : Dev nD) :
    (V m c main_v0 : S8192x128.Idx → EReal) = asMatrix (m ((c : Thread nD τ).loc main_arg0)) := by
  funext y
  obtain ⟨b, l, rfl⟩ : ∃ (b : Fin 8192) (l : Fin 128), y = ix2 b l := ⟨y 0, y 1, eq_ix2 y⟩
  rw [entry_query_apply]
  rfl

/-- The result array is the specification with the fused logit, of the arrays as launched. -/
theorem result_spec (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v2)
      = G logitFused (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_eq m r h c, entry_query_asMatrix, V_main_arg1, V_main_arg2, V_main_arg3, V_main_arg4]
  funext i
  obtain ⟨b, z, l, rfl⟩ : ∃ (b : Fin 8192) (z : Fin 1) (l : Fin 128), i = ix3 b z l := ⟨i 0, i 1, i 2, eq_ix3 i⟩
  rw [G_apply]
  exact shapeCast_apply _ shapeCasts_S8192x128_S8192x1x128 (ix3 b z l) (ix2 b l) (by
    have hz0 : z.val = 0 := by omega
    rw [Shape.rowMajor_val_three, Shape.rowMajor_val_two]
    show b.val * 128 + l.val = (b.val * 1 + z.val) * 128 + l.val
    rw [hz0]; omega)

/-! ## The run, read -/

/-- Every weakly fair execution of the idealized kernel program terminates with its result array at the specification
    (fused logit) of the argument arrays, and the argument arrays unchanged. -/
theorem run : θ_run defs (onTc (τ := τ) (main (F := Ideal))) ⟨m, fun _ => 0, ρ⟩ fun r => ∀ c : Dev nD,
      r.2.mem ((c.tc : Thread nD τ).loc main_v2)
        = G logitFused (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨result_spec m r h c,
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.WholeValue

end
-- ==== Proof.lean ====
/-
  Single-query relative-position attention: the kernel against its reference, on the extended reals.

  For each of 8192 batch rows and each of 4 heads of 32 lanes, both programs form 81 logits from the query row, the
  keys and the two relative arrays, take the softmax of the 81 logits, and mix the 81 value rows of the head with it.
  The kernel forms a logit as ONE sum over the head's lanes of `(q·(k + kr) + qr·k)·s`; the reference as three dot
  products over the same lanes, each times the same `s`, added. On finite entries these are one real number
  (distributivity), which is where the precondition is used; from the logit on, the two programs apply the same
  operations — maximum, shift, exponential, sum, quotient, weighted sum — to the same values.

  The kernel handles 64 batch rows per grid point and the rows are independent, so the 128 blocks it writes are the
  blocks of one function of the whole arrays and tile the result. The reference is read one operation at a time.
  No operation of the kernel is rewritten by the idealization, so there is nothing to preserve beyond the text itself.
-/
import proofs.«155985_j88862873354524_3_alg».proof.Defs
import proofs.«155985_j88862873354524_3_alg».proof.Proof.Gen.Kernel
import proofs.«155985_j88862873354524_3_alg».proof.Proof.Gen.Kernel.Skeleton
import proofs.«155985_j88862873354524_3_alg».proof.Proof.Gen.Kernel.Launch
import proofs.«155985_j88862873354524_3_alg».proof.Proof.Gen.Kernel.Points
import proofs.«155985_j88862873354524_3_alg».proof.Proof.Gen.Kernel.Frame
import proofs.«155985_j88862873354524_3_alg».proof.Proof.Gen.KernelIdeal
import proofs.«155985_j88862873354524_3_alg».proof.Proof.Gen.KernelIdeal.Skeleton
import proofs.«155985_j88862873354524_3_alg».proof.Proof.Gen.KernelIdeal.Launch
import proofs.«155985_j88862873354524_3_alg».proof.Proof.Gen.KernelIdeal.Points
import proofs.«155985_j88862873354524_3_alg».proof.Proof.Gen.KernelIdeal.Frame
import proofs.«155985_j88862873354524_3_alg».proof.Proof.Gen.ReferenceIdeal
import proofs.«155985_j88862873354524_3_alg».proof.Proof.Gen.Pre_finite_inputs
import proofs.«155985_j88862873354524_3_alg».proof.Proof.Gen.ReferenceIdeal.Run
import proofs.«155985_j88862873354524_3_alg».proof.Proof.Gen.ReferenceIdeal.Read
import proofs.«155985_j88862873354524_3_alg».proof.Proof.Spec
import proofs.«155985_j88862873354524_3_alg».proof.Proof.Algebra
import proofs.«155985_j88862873354524_3_alg».proof.Proof.Finite
import proofs.«155985_j88862873354524_3_alg».proof.Proof.RefValue
import proofs.«155985_j88862873354524_3_alg».proof.Proof.KernelValue
import Idealize.ShloMosaic.Adequacy
import Idealize.ShloMosaic.Init

noncomputable section

namespace Cert.Proof

open Idealize.ShloMosaic Idealize.SL.Sem Cert.Attn

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments, with the kernel's arguments finite: the kernel ends at the
    specification with the fused logit, the reference at the specification with the split logit of the same arrays,
    and on finite query, key and relative arrays the two arrangements of the logit are one number. -/
theorem algebraic : Cert.algebraic_KernelIdeal_ReferenceIdeal := by
  intro m ρ m' ρ' hpre hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.Attn.Ref.ref_value, (hagree c).1, (hagree c).2.1, (hagree c).2.2.1,
    (hagree c).2.2.2.1, (hagree c).2.2.2.2]
  obtain ⟨f0, f1, -, f3, f4⟩ := finite_of_fn _ _ _ _ _ (hpre c)
  exact (G_fused_eq_split _ _ _ _ _ f0 f1 f3 f4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
